-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v11_2)) (v4 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v11_2) = v3 c
          ∧ r.2.mem ((c.tc : Thread Cert.KernelIdeal.nD Cert.KernelIdeal.τ).loc Cert.KernelIdeal.main_v11_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S16384x128 : Shape := ⟨2, ![16384, 128]⟩
abbrev S4096x128 : Shape := ⟨2, ![4096, 128]⟩
abbrev S128 : Shape := ⟨1, ![128]⟩
abbrev S128x384 : Shape := ⟨2, ![128, 384]⟩
abbrev S384 : Shape := ⟨1, ![384]⟩
abbrev S256x384 : Shape := ⟨2, ![256, 384]⟩
abbrev S128x64 : Shape := ⟨2, ![128, 64]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S256x384 : S_.BroadcastsInDim S256x384 (![] : Fin 0 → Fin S256x384.rank)
  reducesTo_S256x384_S_d0_1 : S256x384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg19 : FVec F S64 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  main_v93

def fn_part4 {F : FTy → Type} [FloatOps F] (main_arg15 : FVec F S64 .f32) (main_arg16 : FVec F S128x64 .f32) (main_arg17 : FVec F S64 .f32) (main_arg18 : FVec F S128x64 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S384 .f32) (main_arg13 : FVec F S384 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_v48 : IVec S_ 1) (main_v49 : FVec F S128x384 .f32) (main_v50 : FVec F S128x384 .f32) : IVec S_ 1 :=
  let main_v51 : IVec S128x384 1 := cmpf .olt main_v49 main_v50
  let main_c_19 : IVec S_ 1 := constantI S_ 1 1#1
  let main_v52 : IVec S_ 1 := (fun x v => Host.reduce IntOp.andi x v reducesTo_S128x384_S_d0_1 h_S_) main_v51 main_c_19
  let main_v53 : IVec S_ 1 := andi main_v48 main_v52
  let main_v54 : FVec F S384 .f32 := Host.absf main_arg12
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg13
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_arg16 main_arg17 main_arg18 main_arg19 main_v63 main_v67

def fn_part2 {F : FTy → Type} [FloatOps F] (main_arg8 : FVec F S384 .f32) (main_arg9 : FVec F S384 .f32) (main_arg10 : FVec F S256x384 .f32) (main_arg11 : FVec F S128x384 .f32) (main_arg12 : FVec F S384 .f32) (main_arg13 : FVec F S384 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S256x384 .f32 := Host.absf main_arg10
  let main_cst_16 : FVec F S_ .f32 := constant S_ .f32 0x7F800000#32
  let main_v45 : FVec F S256x384 .f32 := broadcastInDim S256x384 ![] bcast_S_S256x384 main_cst_16
  let main_v46 : IVec S256x384 1 := cmpf .olt main_v44 main_v45
  let main_c_17 : IVec S_ 1 := constantI S_ 1 1#1
  let main_v47 : IVec S_ 1 := (fun x v => Host.reduce IntOp.andi x v reducesTo_S256x384_S_d0_1 h_S_) main_v46 main_c_17
  let main_v48 : IVec S_ 1 := andi main_v43 main_v47
  let main_v49 : FVec F S128x384 .f32 := Host.absf main_arg11
  let main_cst_18 : FVec F S_ .f32 := constant S_ .f32 0x7F800000#32
  let main_v50 : FVec F S128x384 .f32 := broadcastInDim S128x384 ![] bcast_S_S128x384 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x384 .f32) (main_arg7 : FVec F S128x384 .f32) (main_arg8 : FVec F S384 .f32) (main_arg9 : FVec F S384 .f32) (main_arg10 : FVec F S256x384 .f32) (main_arg11 : FVec F S128x384 .f32) (main_arg12 : FVec F S384 .f32) (main_arg13 : FVec F S384 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x384 .f32 := Host.absf main_arg6
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128x384 .f32 := Host.absf main_arg7
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S16384x4096 .f32) (main_arg1 : IVec S16384 32) (main_arg2 : FVec F S16384x128 .f32) (main_arg3 : FVec F S16384x128 .f32) (main_arg4 : FVec F S4096x128 .f32) (main_arg5 : FVec F S128 .f32) (main_arg6 : FVec F S128x384 .f32) (main_arg7 : FVec F S128x384 .f32) (main_arg8 : FVec F S384 .f32) (main_arg9 : FVec F S384 .f32) (main_arg10 : FVec F S256x384 .f32) (main_arg11 : FVec F S128x384 .f32) (main_arg12 : FVec F S384 .f32) (main_arg13 : FVec F S384 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x128 .f32 := Host.absf main_arg2
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg3
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S4096x128 .f32 := Host.absf main_arg4
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S16384x4096 : Shape := ⟨2, ![16384, 4096]⟩
abbrev S16384 : Shape := ⟨1, ![16384]⟩
abbrev S16384x128 : Shape := ⟨2, ![16384, 128]⟩
abbrev S4096x128 : Shape := ⟨2, ![4096, 128]⟩
abbrev S128 : Shape := ⟨1, ![128]⟩
abbrev S128x384 : Shape := ⟨2, ![128, 384]⟩
abbrev S384 : Shape := ⟨1, ![384]⟩
abbrev S256x384 : Shape := ⟨2, ![256, 384]⟩
abbrev S128x64 : Shape := ⟨2, ![128, 64]⟩
abbrev S64 : Shape := ⟨1, ![64]⟩
abbrev S128x128 : Shape := ⟨2, ![128, 128]⟩
abbrev S1x128 : Shape := ⟨2, ![1, 128]⟩
abbrev S_ : Shape := ⟨0, ![]⟩
abbrev S1x384 : Shape := ⟨2, ![1, 384]⟩
abbrev S512x4096 : Shape := ⟨2, ![512, 4096]⟩
abbrev S512x128 : Shape := ⟨2, ![512, 128]⟩
abbrev S512x384 : Shape := ⟨2, ![512, 384]⟩
abbrev S512x256 : Shape := ⟨2, ![512, 256]⟩
abbrev S16384x64 : Shape := ⟨2, ![16384, 64]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 73
  | .vmem => 28
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x128, .f32⟩
  | .hbm, ⟨3, _⟩ => ⟨S16384x128, .f32⟩
  | .hbm, ⟨4, _⟩ => ⟨S4096x128, .f32⟩
  | .hbm, ⟨5, _⟩ => ⟨S128, .f32⟩
  | .hbm, ⟨6, _⟩ => ⟨S128x384, .f32⟩
  | .hbm, ⟨7, _⟩ => ⟨S128x384, .f32⟩
  | .hbm, ⟨8, _⟩ => ⟨S384, .f32⟩
  | .hbm, ⟨9, _⟩ => ⟨S384, .f32⟩
  | .hbm, ⟨10, _⟩ => ⟨S256x384, .f32⟩
  | .hbm, ⟨11, _⟩ => ⟨S128x384, .f32⟩
  | .hbm, ⟨12, _⟩ => ⟨S384, .f32⟩
  | .hbm, ⟨13, _⟩ => ⟨S384, .f32⟩
  | .hbm, ⟨14, _⟩ => ⟨S128x64, .f32⟩
  | .hbm, ⟨15, _⟩ => ⟨S64, .f32⟩
  | .hbm, ⟨16, _⟩ => ⟨S128x64, .f32⟩
  | .hbm, ⟨17, _⟩ => ⟨S64, .f32⟩
  | .hbm, ⟨18, _⟩ => ⟨S128x64, .f32⟩
  | .hbm, ⟨19, _⟩ => ⟨S64, .f32⟩
  | .hbm, ⟨20, _⟩ => ⟨S128x128, .f32⟩
  | .hbm, ⟨21, _⟩ => ⟨S128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128x128, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1x128, .f32⟩
  | .hbm, ⟨31, _⟩ => ⟨S1x384, .f32⟩
  | .hbm, ⟨32, _⟩ => ⟨S1x384, .f32⟩
  | .hbm, ⟨33, _⟩ => ⟨S1x384, .f32⟩
  | .hbm, ⟨34, _⟩ => ⟨S1x384, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x64, .f32⟩
  | .hbm, ⟨40, _⟩ => ⟨S16384x64, .f32⟩
  | .hbm, ⟨41, _⟩ => ⟨S16384x64, .f32⟩
  | .hbm, ⟨42, _⟩ => ⟨S16384x64, .f32⟩
  | .hbm, ⟨43, _⟩ => ⟨S_, .f32⟩
  | .hbm, ⟨44, _⟩ => ⟨S16384x64, .f32⟩
  | .hbm, ⟨45, _⟩ => ⟨S16384x64, .f32⟩
  | .hbm, ⟨46, _⟩ => ⟨S_, .f32⟩
  | .hbm, ⟨47, _⟩ => ⟨S16384x64, .f32⟩
  | .hbm, ⟨48, _⟩ => ⟨S16384x64, .f32⟩
  | .hbm, ⟨49, _⟩ => ⟨S16384x1, .i32⟩
  | .hbm, ⟨50, _⟩ => ⟨S_, .i32⟩
  | .hbm, ⟨51, _⟩ => ⟨S16384x1, .i32⟩
  | .hbm, ⟨52, _⟩ => ⟨S16384x1, .i1⟩
  | .hbm, ⟨53, _⟩ => ⟨S_, .i32⟩
  | .hbm, ⟨54, _⟩ => ⟨S16384x1, .i32⟩
  | .hbm, ⟨55, _⟩ => ⟨S16384x1, .i32⟩
  | .hbm, ⟨56, _⟩ => ⟨S16384x1, .i32⟩
  | .hbm, ⟨57, _⟩ => ⟨S16384x1x1, .i32⟩
  | .hbm, ⟨58, _⟩ => ⟨S1, .i32⟩
  | .hbm, ⟨59, _⟩ => ⟨S_, .i32⟩
  | .hbm, ⟨60, _⟩ => ⟨S16384x1x1, .i32⟩
  | .hbm, ⟨61, _⟩ => ⟨S16384x1x1, .i1⟩
  | .hbm, ⟨62, _⟩ => ⟨S1x1x1, .i32⟩
  | .hbm, ⟨63, _⟩ => ⟨S16384x1x1, .i32⟩
  | .hbm, ⟨64, _⟩ => ⟨S16384x1x1, .i1⟩
  | .hbm, ⟨65, _⟩ => ⟨S16384x1x1, .i1⟩
  | .hbm, ⟨66, _⟩ => ⟨S_, .i1⟩
  | .hbm, ⟨67, _⟩ => ⟨S16384x1, .i1⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S4096x128, .f32⟩
  | .local _ .vmem, ⟨7, _⟩ => ⟨S1x128, .f32⟩
  | .local _ .vmem, ⟨8, _⟩ => ⟨S128x384, .f32⟩
  | .local _ .vmem, ⟨9, _⟩ => ⟨S128x384, .f32⟩
  | .local _ .vmem, ⟨10, _⟩ => ⟨S1x384, .f32⟩
  | .local _ .vmem, ⟨11, _⟩ => ⟨S1x384, .f32⟩
  | .local _ .vmem, ⟨12, _⟩ => ⟨S256x384, .f32⟩
  | .local _ .vmem, ⟨13, _⟩ => ⟨S128x384, .f32⟩
  | .local _ .vmem, ⟨14, _⟩ => ⟨S1x384, .f32⟩
  | .local _ .vmem, ⟨15, _⟩ => ⟨S1x384, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_call0_v0 : Ref sig .tc := ⟨.hbm, 24, rfl⟩
abbrev main_v3 : Ref sig .tc := ⟨.hbm, 25, rfl⟩
abbrev main_c_0 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11_0 : Ref sig .tc := ⟨.hbm, 35, rfl⟩
abbrev main_v11_1 : Ref sig .tc := ⟨.hbm, 36, rfl⟩
abbrev main_v11_2 : Ref sig .tc := ⟨.hbm, 37, rfl⟩
abbrev main_v11_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v21 : Ref sig .tc := ⟨.hbm, 71, rfl⟩
abbrev main_v22 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  concatenates_S128x64_S128x64_S128x128_d1 : Shape.Concatenates [S128x64, S128x64] S128x128 1
  concatenates_S64_S64_S128_d0 : Shape.Concatenates [S64, S64] S128 0
  shapeCasts_S128_S1x128 : S128.ShapeCasts S1x128
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S384_S1x384 : S384.ShapeCasts S1x384
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S512x128_S512x128_S512x256_d1 : Shape.Concatenates [S512x128, S512x128] S512x256 1
  inb_S256x384_S256x384_0_0 : ∀ a, (![0, 0] : Fin 2 → Nat) a + S256x384.size a ≤ S256x384.size a
  h_S256x384 : 0 < S256x384.numel
  slices_S16384x128_S16384x64_0_0 : S16384x128.Slices ![0, 0] S16384x64
  slices_S16384x128_S16384x64_0_64 : S16384x128.Slices ![0, 64] S16384x64
  bcast_S_S16384x64 : S_.BroadcastsInDim S16384x64 (![] : Fin 0 → Fin S16384x64.rank)
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  dot_S512x4096_S4096x128_S512x128_1_0_0_1_n_n_wf : DotDims.WF S512x4096 S4096x128 S512x128 [1] [0] [0] [1] [] []
  dot_S512x128_S128x384_S512x384_1_0_0_1_n_n_wf : DotDims.WF S512x128 S128x384 S512x384 [1] [0] [0] [1] [] []
  dot_S512x128_S128x128_S512x128_1_0_0_1_n_n_wf : DotDims.WF S512x128 S128x128 S512x128 [1] [0] [0] [1] [] []
  dot_S512x256_S256x384_S512x384_1_0_0_1_n_n_wf : DotDims.WF S512x256 S256x384 S512x384 [1] [0] [0] [1] [] []
  gather_S16384x64_S16384x1x1_S16384x1_n_1_0_0_1_2_11_wf : GatherDims.WF S16384x64 S16384x1x1 S16384x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S16384x128.size a
  hwx0_2 : ∀ i : grid0.Coords, EltTy.bits .f32 = 32 ∨ (Rect.block (s := S16384x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .f32 = 32 ∨ (Rect.block (s := S4096x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x384.size a ≤ S128x384.size a
  hwx0_6 : ∀ i : grid0.Coords, EltTy.bits .f32 = 32 ∨ (Rect.block (s := S128x384) S128x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x384.size a ≤ S256x384.size a
  hwx0_9 : ∀ i : grid0.Coords, EltTy.bits .f32 = 32 ∨ (Rect.block (s := S256x384) S256x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x384.size a ≤ S128x384.size a
  hwx0_10 : ∀ i : grid0.Coords, EltTy.bits .f32 = 32 ∨ (Rect.block (s := S128x384) S128x384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x384.size a ≤ S1x384.size a
  hwx0_11 : ∀ i : grid0.Coords, EltTy.bits .f32 = 32 ∨ (Rect.block (s := S1x384) S1x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x384.size a ≤ S1x384.size a
  hwx0_12 : ∀ i : grid0.Coords, EltTy.bits .f32 = 32 ∨ (Rect.block (s := S1x384) S1x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x128.size a ≤ S16384x128.size a
  hwx0_17 : ∀ i : grid0.Coords, EltTy.bits .f32 = 32 ∨ (Rect.block (s := S16384x128) S512x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x128.size a ≤ S16384x128.size a
  hwx0_18 : ∀ i : grid0.Coords, EltTy.bits .f32 = 32 ∨ (Rect.block (s := S16384x128) S512x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x128.size a ≤ S16384x128.size a
  hwx0_19 : ∀ i : grid0.Coords, EltTy.bits .f32 = 32 ∨ (Rect.block (s := S16384x128) S512x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x128.size a ≤ S16384x128.size a
  hwx0_20 : ∀ i : grid0.Coords, EltTy.bits .f32 = 32 ∨ (Rect.block (s := S16384x128) S512x128.size (cc0_transform_20 i) (hinb0_20 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x256_S256x384_S512x384_1_0_0_1_n_n : DotDims S512x256 S256x384 S512x384 where
  lhsContracting := [1]
  rhsContracting := [0]
  lhsNonContracting := [0]
  rhsNonContracting := [1]
  lhsBatch := []
  rhsBatch := []
  wf := dot_S512x256_S256x384_S512x384_1_0_0_1_n_n_wf
def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v2) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v3) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v11_0) S512x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v11_1) S512x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v11_2) S512x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v11_3) S512x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384 : Shape := ⟨1, ![16384]⟩
abbrev S16384x128 : Shape := ⟨2, ![16384, 128]⟩
abbrev S4096x128 : Shape := ⟨2, ![4096, 128]⟩
abbrev S128 : Shape := ⟨1, ![128]⟩
abbrev S128x384 : Shape := ⟨2, ![128, 384]⟩
abbrev S384 : Shape := ⟨1, ![384]⟩
abbrev S256x384 : Shape := ⟨2, ![256, 384]⟩
abbrev S128x64 : Shape := ⟨2, ![128, 64]⟩
abbrev S64 : Shape := ⟨1, ![64]⟩
abbrev S1x128 : Shape := ⟨2, ![1, 128]⟩
abbrev S16384x384 : Shape := ⟨2, ![16384, 384]⟩
abbrev S1x384 : Shape := ⟨2, ![1, 384]⟩
abbrev S_ : Shape := ⟨0, ![]⟩
abbrev S16384x64 : Shape := ⟨2, ![16384, 64]⟩
abbrev S1x64 : Shape := ⟨2, ![1, 64]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x256 : Shape := ⟨2, ![16384, 256]⟩

abbrev nBuf : Space → Nat
  | .hbm => 169
  | .vmem => 0
  | .smem => 0
  | _ => 0

abbrev hbmTy0_0 (i : Nat) : BufTy := match i % 128 with
  | 0 => ⟨S16384x4096, .f32⟩
  | 1 => ⟨S16384, .i32⟩
  | 2 => ⟨S16384x128, .f32⟩
  | 3 => ⟨S16384x128, .f32⟩
  | 4 => ⟨S4096x128, .f32⟩
  | 5 => ⟨S128, .f32⟩
  | 6 => ⟨S128x384, .f32⟩
  | 7 => ⟨S128x384, .f32⟩
  | 8 => ⟨S384, .f32⟩
  | 9 => ⟨S384, .f32⟩
  | 10 => ⟨S256x384, .f32⟩
  | 11 => ⟨S128x384, .f32⟩
  | 12 => ⟨S384, .f32⟩
  | 13 => ⟨S384, .f32⟩
  | 14 => ⟨S128x64, .f32⟩
  | 15 => ⟨S64, .f32⟩
  | 16 => ⟨S128x64, .f32⟩
  | 17 => ⟨S64, .f32⟩
  | 18 => ⟨S128x64, .f32⟩
  | 19 => ⟨S64, .f32⟩
  | 20 => ⟨S16384x128, .f32⟩
  | 21 => ⟨S1x128, .f32⟩
  | 22 => ⟨S16384x128, .f32⟩
  | 23 => ⟨S16384x128, .f32⟩
  | 24 => ⟨S16384x128, .f32⟩
  | 25 => ⟨S16384x384, .f32⟩
  | 26 => ⟨S1x384, .f32⟩
  | 27 => ⟨S16384x384, .f32⟩
  | 28 => ⟨S16384x384, .f32⟩
  | 29 => ⟨S16384x384, .f32⟩
  | 30 => ⟨S1x384, .f32⟩
  | 31 => ⟨S16384x384, .f32⟩
  | 32 => ⟨S16384x384, .f32⟩
  | 33 => ⟨S16384x128, .f32⟩
  | 34 => ⟨S16384x128, .f32⟩
  | 35 => ⟨S16384x128, .f32⟩
  | 36 => ⟨S16384x128, .f32⟩
  | 37 => ⟨S16384x128, .f32⟩
  | 38 => ⟨S16384x128, .f32⟩
  | 39 => ⟨S16384x128, .f32⟩
  | 40 => ⟨S16384x128, .f32⟩
  | 41 => ⟨S16384x128, .f32⟩
  | 42 => ⟨S_, .f32⟩
  | 43 => ⟨S16384x128, .f32⟩
  | 44 => ⟨S16384x128, .f32⟩
  | 45 => ⟨S_, .f32⟩
  | 46 => ⟨S16384x128, .f32⟩
  | 47 => ⟨S16384x128, .f32⟩
  | 48 => ⟨S16384x128, .f32⟩
  | 49 => ⟨S16384x128, .f32⟩
  | 50 => ⟨S16384x128, .f32⟩
  | 51 => ⟨S_, .f32⟩
  | 52 => ⟨S16384x128, .f32⟩
  | 53 => ⟨S16384x128, .f32⟩
  | 54 => ⟨S_, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S_, .f32⟩
  | 61 => ⟨S16384x128, .f32⟩
  | 62 => ⟨S16384x128, .f32⟩
  | 63 => ⟨S16384x128, .f32⟩
  | 64 => ⟨S16384x128, .f32⟩
  | 65 => ⟨S16384x128, .f32⟩
  | 66 => ⟨S_, .f32⟩
  | 67 => ⟨S16384x128, .f32⟩
  | 68 => ⟨S16384x128, .f32⟩
  | 69 => ⟨S_, .f32⟩
  | 70 => ⟨S16384x128, .f32⟩
  | 71 => ⟨S16384x128, .f32⟩
  | 72 => ⟨S_, .f32⟩
  | 73 => ⟨S16384x128, .f32⟩
  | 74 => ⟨S16384x128, .f32⟩
  | 75 => ⟨S16384x64, .f32⟩
  | 76 => ⟨S1x64, .f32⟩
  | 77 => ⟨S16384x64, .f32⟩
  | 78 => ⟨S16384x64, .f32⟩
  | 79 => ⟨S16384x64, .f32⟩
  | 80 => ⟨S1x64, .f32⟩
  | 81 => ⟨S16384x64, .f32⟩
  | 82 => ⟨S16384x64, .f32⟩
  | 83 => ⟨S16384x64, .f32⟩
  | 84 => ⟨S16384x64, .f32⟩
  | 85 => ⟨S_, .f32⟩
  | 86 => ⟨S16384x64, .f32⟩
  | 87 => ⟨S16384x64, .f32⟩
  | 88 => ⟨S_, .f32⟩
  | 89 => ⟨S16384x64, .f32⟩
  | 90 => ⟨S16384x64, .f32⟩
  | 91 => ⟨S16384x1, .i32⟩
  | 92 => ⟨S_, .i32⟩
  | 93 => ⟨S16384x1, .i32⟩
  | 94 => ⟨S16384x1, .i1⟩
  | 95 => ⟨S_, .i32⟩
  | 96 => ⟨S16384x1, .i32⟩
  | 97 => ⟨S16384x1, .i32⟩
  | 98 => ⟨S16384x1, .i32⟩
  | 99 => ⟨S16384x1x1, .i32⟩
  | 100 => ⟨S1, .i32⟩
  | 101 => ⟨S_, .i32⟩
  | 102 => ⟨S16384x1x1, .i32⟩
  | 103 => ⟨S16384x1x1, .i1⟩
  | 104 => ⟨S1x1x1, .i32⟩
  | 105 => ⟨S16384x1x1, .i32⟩
  | 106 => ⟨S16384x1x1, .i1⟩
  | 107 => ⟨S16384x1x1, .i1⟩
  | 108 => ⟨S_, .i1⟩
  | 109 => ⟨S16384x1, .i1⟩
  | 110 => ⟨S16384x1, .f32⟩
  | 111 => ⟨S_, .f32⟩
  | 112 => ⟨S16384x1, .f32⟩
  | 113 => ⟨S16384x1, .f32⟩
  | 114 => ⟨S16384x256, .f32⟩
  | 115 => ⟨S16384x384, .f32⟩
  | 116 => ⟨S1x384, .f32⟩
  | 117 => ⟨S16384x384, .f32⟩
  | 118 => ⟨S16384x384, .f32⟩
  | 119 => ⟨S16384x384, .f32⟩
  | 120 => ⟨S1x384, .f32⟩
  | 121 => ⟨S16384x384, .f32⟩
  | 122 => ⟨S16384x384, .f32⟩
  | 123 => ⟨S16384x128, .f32⟩
  | 124 => ⟨S16384x128, .f32⟩
  | 125 => ⟨S16384x128, .f32⟩
  | 126 => ⟨S16384x128, .f32⟩
  | 127 => ⟨S16384x128, .f32⟩
  | _ => ⟨S16384x4096, .f32⟩

abbrev hbmTy0_1 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S_, .f32⟩
  | 5 => ⟨S16384x128, .f32⟩
  | 6 => ⟨S16384x128, .f32⟩
  | 7 => ⟨S_, .f32⟩
  | 8 => ⟨S16384x128, .f32⟩
  | 9 => ⟨S16384x128, .f32⟩
  | 10 => ⟨S16384x128, .f32⟩
  | 11 => ⟨S16384x128, .f32⟩
  | 12 => ⟨S16384x128, .f32⟩
  | 13 => ⟨S_, .f32⟩
  | 14 => ⟨S16384x128, .f32⟩
  | 15 => ⟨S16384x128, .f32⟩
  | 16 => ⟨S_, .f32⟩
  | 17 => ⟨S16384x128, .f32⟩
  | 18 => ⟨S16384x128, .f32⟩
  | 19 => ⟨S16384x128, .f32⟩
  | 20 => ⟨S16384x128, .f32⟩
  | 21 => ⟨S16384x128, .f32⟩
  | 22 => ⟨S_, .f32⟩
  | 23 => ⟨S16384x128, .f32⟩
  | 24 => ⟨S16384x128, .f32⟩
  | 25 => ⟨S16384x128, .f32⟩
  | 26 => ⟨S16384x128, .f32⟩
  | 27 => ⟨S16384x128, .f32⟩
  | 28 => ⟨S_, .f32⟩
  | 29 => ⟨S16384x128, .f32⟩
  | 30 => ⟨S16384x128, .f32⟩
  | 31 => ⟨S_, .f32⟩
  | 32 => ⟨S16384x128, .f32⟩
  | 33 => ⟨S16384x128, .f32⟩
  | 34 => ⟨S_, .f32⟩
  | 35 => ⟨S16384x128, .f32⟩
  | 36 => ⟨S16384x128, .f32⟩
  | 37 => ⟨S16384x64, .f32⟩
  | 38 => ⟨S1x64, .f32⟩
  | 39 => ⟨S16384x64, .f32⟩
  | 40 => ⟨S16384x64, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_cst_0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_cst_8 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call0_c : Ref sig .tc := ⟨.hbm, 92, rfl⟩
abbrev main_call0_v0 : Ref sig .tc := ⟨.hbm, 93, rfl⟩
abbrev main_call0_v1 : Ref sig .tc := ⟨.hbm, 94, rfl⟩
abbrev main_call0_c_0 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_c_1 : Ref sig .tc := ⟨.hbm, 100, rfl⟩
abbrev main_call0_c_2 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_c_3 : Ref sig .tc := ⟨.hbm, 108, rfl⟩
abbrev main_call0_v12 : Ref sig .tc := ⟨.hbm, 109, rfl⟩
abbrev main_call0_v13 : Ref sig .tc := ⟨.hbm, 110, rfl⟩
abbrev main_call0_cst : Ref sig .tc := ⟨.hbm, 111, rfl⟩
abbrev main_call0_v14 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_9 : Ref sig .tc := ⟨.hbm, 132, rfl⟩
abbrev main_v81 : Ref sig .tc := ⟨.hbm, 133, rfl⟩
abbrev main_v82 : Ref sig .tc := ⟨.hbm, 134, rfl⟩
abbrev main_cst_10 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_11 : Ref sig .tc := ⟨.hbm, 141, rfl⟩
abbrev main_v88 : Ref sig .tc := ⟨.hbm, 142, rfl⟩
abbrev main_v89 : Ref sig .tc := ⟨.hbm, 143, rfl⟩
abbrev main_cst_12 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_13 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_14 : Ref sig .tc := ⟨.hbm, 156, rfl⟩
abbrev main_v100 : Ref sig .tc := ⟨.hbm, 157, rfl⟩
abbrev main_v101 : Ref sig .tc := ⟨.hbm, 158, rfl⟩
abbrev main_cst_15 : Ref sig .tc := ⟨.hbm, 159, rfl⟩
abbrev main_v102 : Ref sig .tc := ⟨.hbm, 160, rfl⟩
abbrev main_v103 : Ref sig .tc := ⟨.hbm, 161, rfl⟩
abbrev main_cst_16 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S384_S1x384_1 : S384.BroadcastsInDim S1x384 (![1] : Fin 1 → Fin S1x384.rank)
  bcast_S1x384_S16384x384_0_1 : S1x384.BroadcastsInDim S16384x384 (![0, 1] : Fin 2 → Fin S16384x384.rank)
  slices_S16384x384_S16384x128_0_0 : S16384x384.Slices ![0, 0] S16384x128
  slices_S16384x384_S16384x128_0_128 : S16384x384.Slices ![0, 128] S16384x128
  slices_S16384x384_S16384x128_0_256 : S16384x384.Slices ![0, 256] S16384x128
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  concatenates_S16384x128_S16384x128_S16384x256_d1 : Shape.Concatenates [S16384x128, S16384x128] S16384x256 1
  dot_S16384x4096_S4096x128_S16384x128_1_0_0_1_n_n_wf : DotDims.WF S16384x4096 S4096x128 S16384x128 [1] [0] [0] [1] [] []
  dot_S16384x128_S128x384_S16384x384_1_0_0_1_n_n_wf : DotDims.WF S16384x128 S128x384 S16384x384 [1] [0] [0] [1] [] []
  dot_S16384x128_S128x64_S16384x64_1_0_0_1_n_n_wf : DotDims.WF S16384x128 S128x64 S16384x64 [1] [0] [0] [1] [] []
  gather_S16384x64_S16384x1x1_S16384x1_n_1_0_0_1_2_11_wf : GatherDims.WF S16384x64 S16384x1x1 S16384x1 [] [1] [0] [1] [0] 2 ![1, 1]
  dot_S16384x256_S256x384_S16384x384_1_0_0_1_n_n_wf : DotDims.WF S16384x256 S256x384 S16384x384 [1] [0] [0] [1] [] []

variable [Facts₀]

def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf
def dot_S16384x128_S128x384_S16384x384_1_0_0_1_n_n : DotDims S16384x128 S128x384 S16384x384 where
  lhsContracting := [1]
  rhsContracting := [0]
  lhsNonContracting := [0]
  rhsNonContracting := [1]
  lhsBatch := []
  rhsBatch := []
  wf := dot_S16384x128_S128x384_S16384x384_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S16384x1x1_S16384x1_n_1_0_0_1_2_11 : GatherDims S16384x64 S16384x1x1 S16384x1 where
  offsetDims := []
  collapsedSliceDims := [1]
  operandBatchingDims := [0]
  startIndicesBatchingDims := [0]
  startIndexMap := [1]
  indexVectorDim := 2
  sliceSizes := ![1, 1]
  wf := gather_S16384x64_S16384x1x1_S16384x1_n_1_0_0_1_2_11_wf
def dot_S16384x256_S256x384_S16384x384_1_0_0_1_n_n : DotDims S16384x256 S256x384 S16384x384 where
  lhsContracting := [1]
  rhsContracting := [0]
  lhsNonContracting := [0]
  rhsNonContracting := [1]
  lhsBatch := []
  rhsBatch := []
  wf := dot_S16384x256_S256x384_S16384x384_1_0_0_1_n_n_wf

class Facts : Prop extends Facts₀ where

variable [Facts]
-- ==== Proof.RefEq.lean ====
/-
  The reference's five results, as its run names them, are its values read one operation at a time: each result's term is
  the last operation's value applied to the arguments as launched.
-/
import proofs.«110454_j70712341561351_2_alg».proof.Proof.RefRunP
import proofs.«110454_j70712341561351_2_alg».proof.Proof.RefReadP

noncomputable section

namespace Cert.ReferenceIdeal.RefEq

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The run's term for result `main_v50` is that operation's value. -/
theorem val_main_v50_eq (m : (ℓ : Loc nD τ sig) → Buf (Elt F) ℓ) (c : Dev nD) :
    Cert.ReferenceIdeal.Value.res_main_v50 m c = val_main_v50 (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)) := by
  unfold Cert.ReferenceIdeal.Value.res_main_v50; rfl

/-- The run's term for result `main_v62` is that operation's value. -/
theorem val_main_v62_eq (m : (ℓ : Loc nD τ sig) → Buf (Elt F) ℓ) (c : Dev nD) :
    Cert.ReferenceIdeal.Value.res_main_v62 m c = val_main_v62 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) := by
  unfold Cert.ReferenceIdeal.Value.res_main_v62; rfl

/-- The run's term for result `main_v109` is that operation's value. -/
theorem val_main_v109_eq (m : (ℓ : Loc nD τ sig) → Buf (Elt F) ℓ) (c : Dev nD) :
    Cert.ReferenceIdeal.Value.res_main_v109 m c = val_main_v109 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) := by
  unfold Cert.ReferenceIdeal.Value.res_main_v109; rfl

/-- The run's term for result `main_v40` is that operation's value. -/
theorem val_main_v40_eq (m : (ℓ : Loc nD τ sig) → Buf (Elt F) ℓ) (c : Dev nD) :
    Cert.ReferenceIdeal.Value.res_main_v40 m c = val_main_v40 (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.Value.res_main_v40; rfl

/-- The run's term for result `main_v99` is that operation's value. -/
theorem val_main_v99_eq (m : (ℓ : Loc nD τ sig) → Buf (Elt F) ℓ) (c : Dev nD) :
    Cert.ReferenceIdeal.Value.res_main_v99 m c = val_main_v99 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.Value.res_main_v99; rfl

end Cert.ReferenceIdeal.RefEq

end
-- ==== Proof.Spec.lean ====
/-
  The mathematics both programs compute, one ROW at a time. Every result row depends on the same row of the
  observations and of the two hidden states, and on the weights:

    attention    a   = tanh (x · Wa + ba)
    a GRU cell   h'  = (1 − z) · n + z · h,   with  gi = u · Wih + bih,  gh = h · Whh + bhh  (three gates of 128 columns each),
                 r = σ (gi₀ + gh₀),  z = σ (gi₁ + gh₁),  n = tanh (gi₂ + r · gh₂)
    a head       v   = ((h' − ½) · ½ + ½) · W + b

  Layer 0's cell reads u = a; layer 1's reads u = a followed by its own hidden row (256 entries).
  σ is the logistic function 1 / (1 + e^(−t)) on the extended reals; sums and products are the extended reals' own.
-/
import Idealize.ShloMosaic.PureOps.Ideal
import Idealize.ShloMosaic.Lib.IdealHost
import Idealize.ShloMosaic.Lib.ValueIdx

noncomputable section

namespace Cert.Spec

open Idealize.ShloMosaic Idealize.ShloMosaic.ValueIdx

/-- The float words of 1 and of ½, read as extended reals. -/
abbrev one : EReal := Ideal.ofBits .f32 0x3F800000#32
abbrev half : EReal := Ideal.ofBits .f32 0x3F000000#32

/-- Row `r` of a matrix, column `j` of a matrix by row, and a vector, by coordinates. -/
abbrev row {n0 n1 : Nat} (X : (⟨2, ![n0, n1]⟩ : Shape).Idx → EReal) (r : Fin n0) : Fin n1 → EReal := fun k => X (ix2 r k)
abbrev mat {n0 n1 : Nat} (W : (⟨2, ![n0, n1]⟩ : Shape).Idx → EReal) : Fin n0 → Fin n1 → EReal := fun k j => W (ix2 k j)
abbrev vec {n : Nat} (b : (⟨1, ![n]⟩ : Shape).Idx → EReal) : Fin n → EReal := fun j => b (ix1 j)

/-- An affine map of a row: entry `j` of `x · W + b`. -/
def lin {ι κ : Type} [Fintype ι] (x : ι → EReal) (W : ι → κ → EReal) (b : κ → EReal) (j : κ) : EReal :=
  (∑ k, x k * W k j) + b j

/-- The attention row: `tanh (x · Wa + ba)`. -/
def attn (x : Fin 4096 → EReal) (Wa : Fin 4096 → Fin 128 → EReal) (ba : Fin 128 → EReal) (j : Fin 128) : EReal :=
  Ideal.tanh (lin x Wa ba j)

/-- Column `q` of the reset, update and candidate gates among the 384 gate columns. -/
def g0 (q : Fin 128) : Fin 384 := ⟨q.val, by omega⟩
def g1 (q : Fin 128) : Fin 384 := ⟨128 + q.val, by omega⟩
def g2 (q : Fin 128) : Fin 384 := ⟨256 + q.val, by omega⟩

/-- One GRU step of a row: input row `u`, hidden row `h`. -/
def gru {ι : Type} [Fintype ι] (u : ι → EReal) (h : Fin 128 → EReal) (Wih : ι → Fin 384 → EReal)
    (Whh : Fin 128 → Fin 384 → EReal) (bih bhh : Fin 384 → EReal) (q : Fin 128) : EReal :=
  (one - Ideal.logistic (lin u Wih bih (g1 q) + lin h Whh bhh (g1 q)))
      * Ideal.tanh (lin u Wih bih (g2 q) + Ideal.logistic (lin u Wih bih (g0 q) + lin h Whh bhh (g0 q)) * lin h Whh bhh (g2 q))
    + Ideal.logistic (lin u Wih bih (g1 q) + lin h Whh bhh (g1 q)) * h q

/-- Two rows of 128 entries laid end to end. -/
def cat (a b : Fin 128 → EReal) (k : Fin 256) : EReal :=
  if h : k.val < 128 then a ⟨k.val, h⟩ else b ⟨k.val - 128, by omega⟩

/-- The gain contrast `(y − ½) · ½ + ½`. -/
def contrast (y : EReal) : EReal := (y - half) * half + half

/-- A head of a hidden row: entry `j` of `contrast h · W + b`. -/
def head {κ : Type} (h : Fin 128 → EReal) (W : Fin 128 → κ → EReal) (b : κ → EReal) (j : κ) : EReal :=
  lin (fun k => contrast (h k)) W b j

/-- The logistic function is the quotient `1 / (1 + e^(−t))` spelt with the float word of 1. -/
theorem logistic_eq (t : EReal) : Ideal.logistic t = Ideal.div one (one + Ideal.exp (-t)) := by
  unfold Ideal.logistic one
  rw [Ideal.ofBits_one_f32]

end Cert.Spec

end
-- ==== Proof.Results.lean ====
/-
  The four result arrays of the region as whole-array functions of what the region finds in its windows: row `r` of a
  result is the row-wise mathematics of `Spec` applied to row `r` of the observations and of the hidden states, with each
  bias the one row of its [1, n] window.
-/
import proofs.«110454_j70712341561351_2_alg».proof.Proof.Gen.KernelIdeal.Frame
import proofs.«110454_j70712341561351_2_alg».proof.Proof.Spec

noncomputable section

namespace Cert.KernelIdeal.Results

open Cert.KernelIdeal Cert.KernelIdeal.Gen Cert.Spec Idealize.ShloMosaic Idealize.ShloMosaic.ValueIdx Idealize.SL.Sem

variable (m : (ℓ : Loc nD τ sig) → Buf (Elt Ideal) ℓ) (c : Dev nD)

/-- The array of layer 0's new hidden state after the run, entry by entry. -/
def G19 : S16384x128.Idx → EReal := fun i =>
  (gru (attn (row (V m c main_arg0) (i 0)) (mat (V m c main_arg4)) (row (V m c main_v6) 0)) (row (V m c main_arg2) (i 0)) (mat (V m c main_arg6)) (mat (V m c main_arg7)) (row (V m c main_v7) 0) (row (V m c main_v8) 0)) (i 1)

/-- The array of layer 0's packed heads after the run, entry by entry. -/
def G17 : S16384x128.Idx → EReal := fun i =>
  head (gru (attn (row (V m c main_arg0) (i 0)) (mat (V m c main_arg4)) (row (V m c main_v6) 0)) (row (V m c main_arg2) (i 0)) (mat (V m c main_arg6)) (mat (V m c main_arg7)) (row (V m c main_v7) 0) (row (V m c main_v8) 0)) (mat (V m c main_v0)) (row (V m c main_v2) 0) (i 1)

/-- The array of layer 1's new hidden state after the run, entry by entry. -/
def G20 : S16384x128.Idx → EReal := fun i =>
  (gru (cat (attn (row (V m c main_arg0) (i 0)) (mat (V m c main_arg4)) (row (V m c main_v6) 0)) (row (V m c main_arg3) (i 0))) (row (V m c main_arg3) (i 0)) (mat (V m c main_arg10)) (mat (V m c main_arg11)) (row (V m c main_v9) 0) (row (V m c main_v10) 0)) (i 1)

/-- The array of layer 1's padded value head after the run, entry by entry. -/
def G18 : S16384x128.Idx → EReal := fun i =>
  head (gru (cat (attn (row (V m c main_arg0) (i 0)) (mat (V m c main_arg4)) (row (V m c main_v6) 0)) (row (V m c main_arg3) (i 0))) (row (V m c main_arg3) (i 0)) (mat (V m c main_arg10)) (mat (V m c main_arg11)) (row (V m c main_v9) 0) (row (V m c main_v10) 0)) (mat (V m c main_v3)) (row (V m c main_v5) 0) (i 1)

end Cert.KernelIdeal.Results

end
-- ==== Proof.BodyRows.lean ====
/-
  What the kernel body leaves in its four output blocks, entry by entry: row `p` of a block is the row-wise
  mathematics of `Spec` applied to row `p` of the observation block and of the two hidden-state blocks, with the
  weight blocks whole and each bias the one row of its [1, n] block.
-/
import proofs.«110454_j70712341561351_2_alg».proof.Proof.Gen.KernelIdeal.Frame
import proofs.«110454_j70712341561351_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyRows

open Cert.KernelIdeal Cert.KernelIdeal.Gen Cert.Spec Idealize.ShloMosaic Idealize.ShloMosaic.ValueIdx

/-! ## A matrix product read at an entry -/

/-- A matrix product into a zero accumulator, contracting the left operand's columns with the right operand's
    rows, read at entry (p, c): the sum over k of l[p, k] * r[k, c]. -/
theorem matmul_rows {A K B : Nat} {φ₁ φ₂ : FTy} (D : DotDims ⟨2, ![A, K]⟩ ⟨2, ![K, B]⟩ ⟨2, ![A, B]⟩)
    (hr : D.contr.rank = 1) (hs : D.contr.size ⟨0, by omega⟩ = K)
    (hl0 : ∀ (j : (⟨2, ![A, B]⟩ : Shape).Idx) (q : D.contr.Idx), (D.lhsIdx j q 0).val = (j 0).val)
    (hl1 : ∀ (j : (⟨2, ![A, B]⟩ : Shape).Idx) (q : D.contr.Idx), (D.lhsIdx j q 1).val = (q ⟨0, by omega⟩).val)
    (hr0 : ∀ (j : (⟨2, ![A, B]⟩ : Shape).Idx) (q : D.contr.Idx), (D.rhsIdx j q 0).val = (q ⟨0, by omega⟩).val)
    (hr1 : ∀ (j : (⟨2, ![A, B]⟩ : Shape).Idx) (q : D.contr.Idx), (D.rhsIdx j q 1).val = (j 1).val)
    (l : FVec Ideal ⟨2, ![A, K]⟩ φ₁) (r : FVec Ideal ⟨2, ![K, B]⟩ φ₂) (p : Fin A) (c : Fin B) :
    FloatOps.matmul D none l r (constant (F := Ideal) ⟨2, ![A, B]⟩ .f32 0x00000000#32) (ix2 p c)
      = ∑ k : Fin K, l (ix2 p k) * r (ix2 k c) := by
  refine (Ideal.matmul_constant_zero_apply D none l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-- The observations times the attention weights: 4096 terms. -/
theorem mm_obs {φ₁ φ₂ : FTy} (l : FVec Ideal S512x4096 φ₁) (r : FVec Ideal S4096x128 φ₂) (p : Fin 512) (c : Fin 128) :
    FloatOps.matmul dot_S512x4096_S4096x128_S512x128_1_0_0_1_n_n none l r (constant (F := Ideal) S512x128 .f32 0x00000000#32) (ix2 p c)
      = ∑ k : Fin 4096, l (ix2 p k) * r (ix2 k c) :=
  matmul_rows dot_S512x4096_S4096x128_S512x128_1_0_0_1_n_n rfl rfl
    (fun j q => by
      unfold DotDims.lhsIdx
      rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
      rfl)
    (fun j q => dot_S512x4096_S4096x128_S512x128_1_0_0_1_n_n.lhsIdx_val_of_single rfl j q)
    (fun j q => dot_S512x4096_S4096x128_S512x128_1_0_0_1_n_n.rhsIdx_val_of_single rfl j q)
    (fun j q => by
      unfold DotDims.rhsIdx
      rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
      rfl)
    l r p c

/-- A row of 128 entries times a gate weight block of 384 columns: 128 terms. -/
theorem mm_gate {φ₁ φ₂ : FTy} (l : FVec Ideal S512x128 φ₁) (r : FVec Ideal S128x384 φ₂) (p : Fin 512) (c : Fin 384) :
    FloatOps.matmul dot_S512x128_S128x384_S512x384_1_0_0_1_n_n none l r (constant (F := Ideal) S512x384 .f32 0x00000000#32) (ix2 p c)
      = ∑ k : Fin 128, l (ix2 p k) * r (ix2 k c) :=
  matmul_rows dot_S512x128_S128x384_S512x384_1_0_0_1_n_n rfl rfl
    (fun j q => by
      unfold DotDims.lhsIdx
      rw [dif_neg (show ¬(0 : Fin S512x128.rank) ∈ dot_S512x128_S128x384_S512x384_1_0_0_1_n_n.lhsBatch by decide), dif_pos (show (0 : Fin S512x128.rank) ∈ dot_S512x128_S128x384_S512x384_1_0_0_1_n_n.lhsNonContracting by decide)]
      rfl)
    (fun j q => dot_S512x128_S128x384_S512x384_1_0_0_1_n_n.lhsIdx_val_of_single rfl j q)
    (fun j q => dot_S512x128_S128x384_S512x384_1_0_0_1_n_n.rhsIdx_val_of_single rfl j q)
    (fun j q => by
      unfold DotDims.rhsIdx
      rw [dif_neg (show ¬(1 : Fin S128x384.rank) ∈ dot_S512x128_S128x384_S512x384_1_0_0_1_n_n.rhsBatch by decide), dif_pos (show (1 : Fin S128x384.rank) ∈ dot_S512x128_S128x384_S512x384_1_0_0_1_n_n.rhsNonContracting by decide)]
      rfl)
    l r p c

/-- A row of 128 entries times a head weight block of 128 columns: 128 terms. -/
theorem mm_head {φ₁ φ₂ : FTy} (l : FVec Ideal S512x128 φ₁) (r : FVec Ideal S128x128 φ₂) (p : Fin 512) (c : Fin 128) :
    FloatOps.matmul dot_S512x128_S128x128_S512x128_1_0_0_1_n_n none l r (constant (F := Ideal) S512x128 .f32 0x00000000#32) (ix2 p c)
      = ∑ k : Fin 128, l (ix2 p k) * r (ix2 k c) :=
  matmul_rows dot_S512x128_S128x128_S512x128_1_0_0_1_n_n rfl rfl
    (fun j q => by
      unfold DotDims.lhsIdx
      rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
      rfl)
    (fun j q => dot_S512x128_S128x128_S512x128_1_0_0_1_n_n.lhsIdx_val_of_single rfl j q)
    (fun j q => dot_S512x128_S128x128_S512x128_1_0_0_1_n_n.rhsIdx_val_of_single rfl j q)
    (fun j q => by
      unfold DotDims.rhsIdx
      rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
      rfl)
    l r p c

/-- A row of 256 entries times a gate weight block of 384 columns: 256 terms. -/
theorem mm_gate2 {φ₁ φ₂ : FTy} (l : FVec Ideal S512x256 φ₁) (r : FVec Ideal S256x384 φ₂) (p : Fin 512) (c : Fin 384) :
    FloatOps.matmul dot_S512x256_S256x384_S512x384_1_0_0_1_n_n none l r (constant (F := Ideal) S512x384 .f32 0x00000000#32) (ix2 p c)
      = ∑ k : Fin 256, l (ix2 p k) * r (ix2 k c) :=
  matmul_rows dot_S512x256_S256x384_S512x384_1_0_0_1_n_n rfl rfl
    (fun j q => by
      unfold DotDims.lhsIdx
      rw [dif_neg (show ¬(0 : Fin S512x256.rank) ∈ dot_S512x256_S256x384_S512x384_1_0_0_1_n_n.lhsBatch by decide), dif_pos (show (0 : Fin S512x256.rank) ∈ dot_S512x256_S256x384_S512x384_1_0_0_1_n_n.lhsNonContracting by decide)]
      rfl)
    (fun j q => dot_S512x256_S256x384_S512x384_1_0_0_1_n_n.lhsIdx_val_of_single rfl j q)
    (fun j q => dot_S512x256_S256x384_S512x384_1_0_0_1_n_n.rhsIdx_val_of_single rfl j q)
    (fun j q => by
      unfold DotDims.rhsIdx
      rw [dif_neg (show ¬(1 : Fin S256x384.rank) ∈ dot_S512x256_S256x384_S512x384_1_0_0_1_n_n.rhsBatch by decide), dif_pos (show (1 : Fin S256x384.rank) ∈ dot_S512x256_S256x384_S512x384_1_0_0_1_n_n.rhsNonContracting by decide)]
      rfl)
    l r p c

/-! ## The body's stages, each read at an entry -/

/-- The attention block: row p is tanh (x · Wa + ba) of row p of the observations. -/
theorem pay3_apply (v0 : Vec Ideal S512x4096 .f32) (v2 : Vec Ideal S4096x128 .f32) (v5 : Vec Ideal S1x128 .f32)
    (p : Fin 512) (k : Fin 128) :
    k0_pay3 (F := Ideal) v0 v2 v5 (ix2 p k) = attn (row v0 p) (mat v2) (row v5 0) k := by
  unfold k0_pay3 attn lin
  refine congrArg Ideal.tanh ?_
  refine congrArg₂ (· + ·) ?_ ?_
  · exact mm_obs _ _ p k
  · rw [shapeCast_self]
    exact broadcastTo_1b_ab_apply _ _ p k

/-- Layer 0's input gates: the affine map of the attention row. -/
theorem pay4_apply (v0 : Vec Ideal S512x4096 .f32) (v2 : Vec Ideal S4096x128 .f32) (v5 : Vec Ideal S1x128 .f32)
    (v11 : Vec Ideal S128x384 .f32) (v13 : Vec Ideal S1x384 .f32) (p : Fin 512) (c : Fin 384) :
    k0_pay4 (F := Ideal) v0 v2 v5 v11 v13 (ix2 p c)
      = lin (attn (row v0 p) (mat v2) (row v5 0)) (mat v11) (row v13 0) c := by
  unfold k0_pay4 lin
  refine congrArg₂ (· + ·) ?_ ?_
  · refine (mm_gate _ _ p c).trans ?_
    exact Finset.sum_congr rfl fun k _ => congrArg (· * v11 (ix2 k c)) (pay3_apply v0 v2 v5 p k)
  · rw [shapeCast_self]
    exact broadcastTo_1b_ab_apply _ _ p c

/-- A hidden row's gates: the affine map of the hidden row. -/
theorem pay5_apply (v10 : Vec Ideal S512x128 .f32) (v12 : Vec Ideal S128x384 .f32) (v15 : Vec Ideal S1x384 .f32)
    (p : Fin 512) (c : Fin 384) :
    k0_pay5 (F := Ideal) v10 v12 v15 (ix2 p c) = lin (row v10 p) (mat v12) (row v15 0) c := by
  unfold k0_pay5 lin
  refine congrArg₂ (· + ·) ?_ ?_
  · exact mm_gate _ _ p c
  · rw [shapeCast_self]
    exact broadcastTo_1b_ab_apply _ _ p c

/-- The three gate blocks of a [512, 384] block: columns q, 128 + q and 256 + q. -/
theorem slice_g0 (X : FVec Ideal S512x384 .f32) (p : Fin 512) (q : Fin 128) :
    extractStridedSlice S512x128 ![0, 0] X slices_S512x384_o0_0_S512x128 (ix2 p q) = X (ix2 p (g0 q)) :=
  slice2_axis1_apply 0 X _ p q (g0 q) (Nat.zero_add _).symm
theorem slice_g1 (X : FVec Ideal S512x384 .f32) (p : Fin 512) (q : Fin 128) :
    extractStridedSlice S512x128 ![0, 128] X slices_S512x384_o0_128_S512x128 (ix2 p q) = X (ix2 p (g1 q)) :=
  slice2_axis1_apply 128 X _ p q (g1 q) rfl
theorem slice_g2 (X : FVec Ideal S512x384 .f32) (p : Fin 512) (q : Fin 128) :
    extractStridedSlice S512x128 ![0, 256] X slices_S512x384_o0_256_S512x128 (ix2 p q) = X (ix2 p (g2 q)) :=
  slice2_axis1_apply 256 X _ p q (g2 q) rfl

/-- Layer 0's update gate. -/
theorem pay6_apply (v0 : Vec Ideal S512x4096 .f32) (v2 : Vec Ideal S4096x128 .f32) (v5 : Vec Ideal S1x128 .f32)
    (v10 : Vec Ideal S512x128 .f32) (v11 v12 : Vec Ideal S128x384 .f32) (v13 v15 : Vec Ideal S1x384 .f32)
    (p : Fin 512) (q : Fin 128) :
    k0_pay6 (F := Ideal) v0 v2 v5 v10 v11 v12 v13 v15 (ix2 p q)
      = Ideal.logistic (lin (attn (row v0 p) (mat v2) (row v5 0)) (mat v11) (row v13 0) (g1 q)
          + lin (row v10 p) (mat v12) (row v15 0) (g1 q)) := by
  unfold k0_pay6
  refine congrArg Ideal.logistic ?_
  refine congrArg₂ (· + ·) ?_ ?_
  · exact (slice_g1 _ p q).trans (pay4_apply v0 v2 v5 v11 v13 p (g1 q))
  · exact (slice_g1 _ p q).trans (pay5_apply v10 v12 v15 p (g1 q))

/-- Layer 0's (1 − z) · n. -/
theorem pay7_apply (v0 : Vec Ideal S512x4096 .f32) (v2 : Vec Ideal S4096x128 .f32) (v5 : Vec Ideal S1x128 .f32)
    (v10 : Vec Ideal S512x128 .f32) (v11 v12 : Vec Ideal S128x384 .f32) (v13 v15 : Vec Ideal S1x384 .f32)
    (p : Fin 512) (q : Fin 128) :
    k0_pay7 (F := Ideal) v0 v2 v5 v10 v11 v12 v13 v15 (ix2 p q)
      = (one - Ideal.logistic (lin (attn (row v0 p) (mat v2) (row v5 0)) (mat v11) (row v13 0) (g1 q)
            + lin (row v10 p) (mat v12) (row v15 0) (g1 q)))
        * Ideal.tanh (lin (attn (row v0 p) (mat v2) (row v5 0)) (mat v11) (row v13 0) (g2 q)
            + Ideal.logistic (lin (attn (row v0 p) (mat v2) (row v5 0)) (mat v11) (row v13 0) (g0 q)
                + lin (row v10 p) (mat v12) (row v15 0) (g0 q))
              * lin (row v10 p) (mat v12) (row v15 0) (g2 q)) := by
  unfold k0_pay7
  refine congrArg₂ (· * ·) ?_ ?_
  · exact congrArg₂ (· - ·) rfl (pay6_apply v0 v2 v5 v10 v11 v12 v13 v15 p q)
  · refine congrArg Ideal.tanh ?_
    refine congrArg₂ (· + ·) ?_ ?_
    · exact (slice_g2 _ p q).trans (pay4_apply v0 v2 v5 v11 v13 p (g2 q))
    · refine congrArg₂ (· * ·) ?_ ?_
      · refine congrArg Ideal.logistic ?_
        refine congrArg₂ (· + ·) ?_ ?_
        · exact (slice_g0 _ p q).trans (pay4_apply v0 v2 v5 v11 v13 p (g0 q))
        · exact (slice_g0 _ p q).trans (pay5_apply v10 v12 v15 p (g0 q))
      · exact (slice_g2 _ p q).trans (pay5_apply v10 v12 v15 p (g2 q))

/-- Layer 0's cell: (1 − z) · n + z · h. -/
theorem gru0_apply (v0 : Vec Ideal S512x4096 .f32) (v2 : Vec Ideal S4096x128 .f32) (v5 : Vec Ideal S1x128 .f32)
    (v10 : Vec Ideal S512x128 .f32) (v11 v12 : Vec Ideal S128x384 .f32) (v13 v15 : Vec Ideal S1x384 .f32)
    (p : Fin 512) (q : Fin 128) :
    k0_pay8 (F := Ideal) v10 (k0_pay6 v0 v2 v5 v10 v11 v12 v13 v15) (k0_pay7 v0 v2 v5 v10 v11 v12 v13 v15) (ix2 p q)
      = gru (attn (row v0 p) (mat v2) (row v5 0)) (row v10 p) (mat v11) (mat v12) (row v13 0) (row v15 0) q := by
  unfold k0_pay8 gru
  exact congrArg₂ (· + ·) (pay7_apply v0 v2 v5 v10 v11 v12 v13 v15 p q)
    (congrArg₂ (· * ·) (pay6_apply v0 v2 v5 v10 v11 v12 v13 v15 p q) rfl)

/-- Layer 0's head: the affine map of the contrasted cell row. -/
theorem pay9_apply (v10 : Vec Ideal S512x128 .f32) (v32 v38 : FVec Ideal S512x128 .f32) (v47 : Vec Ideal S128x128 .f32)
    (v50 : Vec Ideal S1x128 .f32) (p : Fin 512) (j : Fin 128) :
    k0_pay9 (F := Ideal) v10 v32 v38 v47 v50 (ix2 p j)
      = head (fun k => k0_pay8 (F := Ideal) v10 v32 v38 (ix2 p k)) (mat v47) (row v50 0) j := by
  unfold k0_pay9 head lin
  refine congrArg₂ (· + ·) ?_ ?_
  · rw [shapeCast_self]
    exact mm_head _ _ p j
  · rw [shapeCast_self]
    exact broadcastTo_1b_ab_apply _ _ p j

/-- Two blocks joined along the columns: row p is the two rows laid end to end. -/
theorem cat_apply (a : FVec Ideal S512x128 .f32) (b : Vec Ideal S512x128 .f32) (p : Fin 512) (k : Fin 256) :
    concatenate S512x256 1 [⟨S512x128, a⟩, ⟨S512x128, b⟩] concatenates_S512x128_S512x128_S512x256_d1 (ix2 p k)
      = cat (row a p) (row b p) k := by
  unfold cat
  split
  · next h =>
    exact concatenate_pair_apply_left 1 a b _ (ix2 p k) rfl (ix2 p ⟨k.val, h⟩)
      (fun ax => by match ax with | ⟨0, _⟩ => rfl | ⟨1, _⟩ => rfl)
  · next h =>
    exact concatenate_pair_apply_right 1 a b _ (ix2 p k) rfl rfl (ix2 p ⟨k.val - 128, by omega⟩)
      (fun ax hax => by match ax with | ⟨0, _⟩ => rfl | ⟨1, _⟩ => exact absurd (Fin.ext rfl) hax)
      (by show (k.val - 128) + 128 = k.val; omega)

/-- Layer 1's input gates: the affine map of the attention row followed by the hidden row. -/
theorem pay10_apply (v9 : FVec Ideal S512x128 .f32) (v54 : Vec Ideal S512x128 .f32) (v56 : Vec Ideal S256x384 .f32)
    (v58 : Vec Ideal S1x384 .f32) (p : Fin 512) (c : Fin 384) :
    k0_pay10 (F := Ideal) v9 v54 v56 v58 (ix2 p c) = lin (cat (row v9 p) (row v54 p)) (mat v56) (row v58 0) c := by
  unfold k0_pay10 lin
  refine congrArg₂ (· + ·) ?_ ?_
  · refine (mm_gate2 _ _ p c).trans ?_
    exact Finset.sum_congr rfl fun k _ => congrArg (· * v56 (ix2 k c)) (cat_apply v9 v54 p k)
  · rw [shapeCast_self]
    exact broadcastTo_1b_ab_apply _ _ p c

/-- Layer 1's hidden gates. -/
theorem pay11_apply (v54 : Vec Ideal S512x128 .f32) (v57 : Vec Ideal S128x384 .f32) (v60 : Vec Ideal S1x384 .f32)
    (p : Fin 512) (c : Fin 384) :
    k0_pay11 (F := Ideal) v54 v57 v60 (ix2 p c) = lin (row v54 p) (mat v57) (row v60 0) c := by
  unfold k0_pay11 lin
  refine congrArg₂ (· + ·) ?_ ?_
  · exact mm_gate _ _ p c
  · rw [shapeCast_self]
    exact broadcastTo_1b_ab_apply _ _ p c

/-- Layer 1's candidate input gate. -/
theorem pay12_apply (v9 : FVec Ideal S512x128 .f32) (v54 : Vec Ideal S512x128 .f32) (v56 : Vec Ideal S256x384 .f32)
    (v58 : Vec Ideal S1x384 .f32) (p : Fin 512) (q : Fin 128) :
    k0_pay12 (F := Ideal) v9 v54 v56 v58 (ix2 p q)
      = lin (cat (row v9 p) (row v54 p)) (mat v56) (row v58 0) (g2 q) := by
  unfold k0_pay12
  exact (slice_g2 _ p q).trans (pay10_apply v9 v54 v56 v58 p (g2 q))

/-- Layer 1's update gate. -/
theorem pay13_apply (v9 : FVec Ideal S512x128 .f32) (v54 : Vec Ideal S512x128 .f32) (v56 : Vec Ideal S256x384 .f32)
    (v57 : Vec Ideal S128x384 .f32) (v58 v60 : Vec Ideal S1x384 .f32) (p : Fin 512) (q : Fin 128) :
    k0_pay13 (F := Ideal) v9 v54 v56 v57 v58 v60 (ix2 p q)
      = Ideal.logistic (lin (cat (row v9 p) (row v54 p)) (mat v56) (row v58 0) (g1 q)
          + lin (row v54 p) (mat v57) (row v60 0) (g1 q)) := by
  unfold k0_pay13
  refine congrArg Ideal.logistic ?_
  refine congrArg₂ (· + ·) ?_ ?_
  · exact (slice_g1 _ p q).trans (pay10_apply v9 v54 v56 v58 p (g1 q))
  · exact (slice_g1 _ p q).trans (pay11_apply v54 v57 v60 p (g1 q))

/-- Layer 1's reset gate times the hidden candidate gate. -/
theorem pay14_apply (v9 : FVec Ideal S512x128 .f32) (v54 : Vec Ideal S512x128 .f32) (v56 : Vec Ideal S256x384 .f32)
    (v57 : Vec Ideal S128x384 .f32) (v58 v60 : Vec Ideal S1x384 .f32) (p : Fin 512) (q : Fin 128) :
    k0_pay14 (F := Ideal) v9 v54 v56 v57 v58 v60 (ix2 p q)
      = Ideal.logistic (lin (cat (row v9 p) (row v54 p)) (mat v56) (row v58 0) (g0 q)
            + lin (row v54 p) (mat v57) (row v60 0) (g0 q))
          * lin (row v54 p) (mat v57) (row v60 0) (g2 q) := by
  unfold k0_pay14
  refine congrArg₂ (· * ·) ?_ ?_
  · refine congrArg Ideal.logistic ?_
    refine congrArg₂ (· + ·) ?_ ?_
    · exact (slice_g0 _ p q).trans (pay10_apply v9 v54 v56 v58 p (g0 q))
    · exact (slice_g0 _ p q).trans (pay11_apply v54 v57 v60 p (g0 q))
  · exact (slice_g2 _ p q).trans (pay11_apply v54 v57 v60 p (g2 q))

/-- Layer 1's cell: (1 − z) · n + z · h, its input row the attention row followed by the hidden row. -/
theorem gru1_apply (v9 : FVec Ideal S512x128 .f32) (v54 : Vec Ideal S512x128 .f32) (v56 : Vec Ideal S256x384 .f32)
    (v57 : Vec Ideal S128x384 .f32) (v58 v60 : Vec Ideal S1x384 .f32) (p : Fin 512) (q : Fin 128) :
    k0_pay1 (F := Ideal) v54 (k0_pay12 v9 v54 v56 v58) (k0_pay13 v9 v54 v56 v57 v58 v60) (k0_pay14 v9 v54 v56 v57 v58 v60) (ix2 p q)
      = gru (cat (row v9 p) (row v54 p)) (row v54 p) (mat v56) (mat v57) (row v58 0) (row v60 0) q := by
  unfold k0_pay1 gru
  exact congrArg₂ (· + ·)
    (congrArg₂ (· * ·) (congrArg₂ (· - ·) rfl (pay13_apply v9 v54 v56 v57 v58 v60 p q))
      (congrArg Ideal.tanh (congrArg₂ (· + ·) (pay12_apply v9 v54 v56 v58 p q) (pay14_apply v9 v54 v56 v57 v58 v60 p q))))
    (congrArg₂ (· * ·) (pay13_apply v9 v54 v56 v57 v58 v60 p q) rfl)

/-- Layer 1's head: the affine map of the contrasted cell row. -/
theorem pay2_apply (v54 : Vec Ideal S512x128 .f32) (v70 v77 v78 : FVec Ideal S512x128 .f32) (v92 : Vec Ideal S128x128 .f32)
    (v95 : Vec Ideal S1x128 .f32) (p : Fin 512) (j : Fin 128) :
    k0_pay2 (F := Ideal) v54 v70 v77 v78 v92 v95 (ix2 p j)
      = head (fun k => k0_pay1 (F := Ideal) v54 v70 v77 v78 (ix2 p k)) (mat v92) (row v95 0) j := by
  unfold k0_pay2 head lin
  refine congrArg₂ (· + ·) ?_ ?_
  · rw [shapeCast_self]
    exact mm_head _ _ p j
  · rw [shapeCast_self]
    exact broadcastTo_1b_ab_apply _ _ p j

/-! ## The four output blocks -/

/-- The offsets [0, 0] are the zero offsets. -/
theorem z2 : (![0, 0] : Fin 2 → Nat) = fun _ => 0 :=
  funext fun a => by match a with | ⟨0, _⟩ => rfl | ⟨1, _⟩ => rfl

variable (x0 : Vec Ideal S512x4096 .f32) (x1 x2 : Vec Ideal S512x128 .f32) (x3 : Vec Ideal S4096x128 .f32) (x4 : Vec Ideal S1x128 .f32) (x5 x6 : Vec Ideal S128x384 .f32) (x7 x8 : Vec Ideal S1x384 .f32) (x9 : Vec Ideal S256x384 .f32) (x10 : Vec Ideal S128x384 .f32) (x11 x12 : Vec Ideal S1x384 .f32) (x13 : Vec Ideal S128x128 .f32) (x14 : Vec Ideal S1x128 .f32) (x15 : Vec Ideal S128x128 .f32) (x16 : Vec Ideal S1x128 .f32)

/-- Layer 0's new hidden block. -/
theorem out19_apply (p : Fin 512) (q : Fin 128) :
    out0_19 (F := Ideal) x0 x1 x2 x3 x4 x5 x6 x7 x8 x9 x10 x11 x12 x13 x14 x15 x16 (ix2 p q)
      = gru (attn (row x0 p) (mat x3) (row x4 0)) (row x1 p) (mat x5) (mat x6) (row x7 0) (row x8 0) q := by
  unfold out0_19
  refine (congrFun (View.canon_unit_zero z2 _ _) (ix2 p q)).trans ?_
  have e0 : View.ld x0 r0_0 = x0 := View.ld_unit_zero z2 _ x0
  have e1 : View.ld x1 r0_3 = x1 := View.ld_unit_zero z2 _ x1
  have e3 : View.ld x3 r0_1 = x3 := View.ld_unit_zero z2 _ x3
  have e4 : View.ld x4 r0_2 = x4 := View.ld_unit_zero z2 _ x4
  have e5 : View.ld x5 r0_4 = x5 := View.ld_unit_zero z2 _ x5
  have e6 : View.ld x6 r0_4 = x6 := View.ld_unit_zero z2 _ x6
  have e7 : View.ld x7 r0_5 = x7 := View.ld_unit_zero z2 _ x7
  have e8 : View.ld x8 r0_5 = x8 := View.ld_unit_zero z2 _ x8
  rw [e0, e1, e3, e4, e5, e6, e7, e8]
  exact gru0_apply x0 x3 x4 x1 x5 x6 x7 x8 p q

/-- Layer 0's packed head block (128 columns). -/
theorem out17_apply (p : Fin 512) (j : Fin 128) :
    out0_17 (F := Ideal) x0 x1 x2 x3 x4 x5 x6 x7 x8 x9 x10 x11 x12 x13 x14 x15 x16 (ix2 p j)
      = head (gru (attn (row x0 p) (mat x3) (row x4 0)) (row x1 p) (mat x5) (mat x6) (row x7 0) (row x8 0)) (mat x13) (row x14 0) j := by
  unfold out0_17
  refine (congrFun (View.canon_unit_zero z2 _ _) (ix2 p j)).trans ?_
  have e0 : View.ld x0 r0_0 = x0 := View.ld_unit_zero z2 _ x0
  have e1 : View.ld x1 r0_3 = x1 := View.ld_unit_zero z2 _ x1
  have e3 : View.ld x3 r0_1 = x3 := View.ld_unit_zero z2 _ x3
  have e4 : View.ld x4 r0_2 = x4 := View.ld_unit_zero z2 _ x4
  have e5 : View.ld x5 r0_4 = x5 := View.ld_unit_zero z2 _ x5
  have e6 : View.ld x6 r0_4 = x6 := View.ld_unit_zero z2 _ x6
  have e7 : View.ld x7 r0_5 = x7 := View.ld_unit_zero z2 _ x7
  have e8 : View.ld x8 r0_5 = x8 := View.ld_unit_zero z2 _ x8
  have e13 : View.ld x13 r0_6 = x13 := View.ld_unit_zero z2 _ x13
  have e14 : View.ld x14 r0_2 = x14 := View.ld_unit_zero z2 _ x14
  rw [e0, e1, e3, e4, e5, e6, e7, e8, e13, e14]
  refine (pay9_apply x1 _ _ x13 x14 p j).trans ?_
  exact congrArg (fun h => head h (mat x13) (row x14 0) j) (funext fun k => gru0_apply x0 x3 x4 x1 x5 x6 x7 x8 p k)

/-- Layer 1's new hidden block: its cell reads the attention row followed by its own hidden row. -/
theorem out20_apply (p : Fin 512) (q : Fin 128) :
    out0_20 (F := Ideal) x0 x1 x2 x3 x4 x5 x6 x7 x8 x9 x10 x11 x12 x13 x14 x15 x16 (ix2 p q)
      = gru (cat (attn (row x0 p) (mat x3) (row x4 0)) (row x2 p)) (row x2 p) (mat x9) (mat x10) (row x11 0) (row x12 0) q := by
  unfold out0_20
  refine (congrFun (View.canon_unit_zero z2 _ _) (ix2 p q)).trans ?_
  have e0 : View.ld x0 r0_0 = x0 := View.ld_unit_zero z2 _ x0
  have e2 : View.ld x2 r0_3 = x2 := View.ld_unit_zero z2 _ x2
  have e3 : View.ld x3 r0_1 = x3 := View.ld_unit_zero z2 _ x3
  have e4 : View.ld x4 r0_2 = x4 := View.ld_unit_zero z2 _ x4
  have e9 : View.ld x9 r0_7 = x9 := View.ld_unit_zero z2 _ x9
  have e10 : View.ld x10 r0_4 = x10 := View.ld_unit_zero z2 _ x10
  have e11 : View.ld x11 r0_5 = x11 := View.ld_unit_zero z2 _ x11
  have e12 : View.ld x12 r0_5 = x12 := View.ld_unit_zero z2 _ x12
  rw [e0, e2, e3, e4, e9, e10, e11, e12]
  have hu : row (k0_pay3 (F := Ideal) x0 x3 x4) p = attn (row x0 p) (mat x3) (row x4 0) :=
    funext fun k => pay3_apply x0 x3 x4 p k
  refine (gru1_apply (k0_pay3 x0 x3 x4) x2 x9 x10 x11 x12 p q).trans ?_
  rw [hu]

/-- Layer 1's padded head block (128 columns). -/
theorem out18_apply (p : Fin 512) (j : Fin 128) :
    out0_18 (F := Ideal) x0 x1 x2 x3 x4 x5 x6 x7 x8 x9 x10 x11 x12 x13 x14 x15 x16 (ix2 p j)
      = head (gru (cat (attn (row x0 p) (mat x3) (row x4 0)) (row x2 p)) (row x2 p) (mat x9) (mat x10) (row x11 0) (row x12 0)) (mat x15) (row x16 0) j := by
  unfold out0_18
  refine (congrFun (View.canon_unit_zero z2 _ _) (ix2 p j)).trans ?_
  have e0 : View.ld x0 r0_0 = x0 := View.ld_unit_zero z2 _ x0
  have e2 : View.ld x2 r0_3 = x2 := View.ld_unit_zero z2 _ x2
  have e3 : View.ld x3 r0_1 = x3 := View.ld_unit_zero z2 _ x3
  have e4 : View.ld x4 r0_2 = x4 := View.ld_unit_zero z2 _ x4
  have e9 : View.ld x9 r0_7 = x9 := View.ld_unit_zero z2 _ x9
  have e10 : View.ld x10 r0_4 = x10 := View.ld_unit_zero z2 _ x10
  have e11 : View.ld x11 r0_5 = x11 := View.ld_unit_zero z2 _ x11
  have e12 : View.ld x12 r0_5 = x12 := View.ld_unit_zero z2 _ x12
  have e15 : View.ld x15 r0_6 = x15 := View.ld_unit_zero z2 _ x15
  have e16 : View.ld x16 r0_2 = x16 := View.ld_unit_zero z2 _ x16
  rw [e0, e2, e3, e4, e9, e10, e11, e12, e15, e16]
  have hu : row (k0_pay3 (F := Ideal) x0 x3 x4) p = attn (row x0 p) (mat x3) (row x4 0) :=
    funext fun k => pay3_apply x0 x3 x4 p k
  refine (pay2_apply x2 _ _ _ x15 x16 p j).trans ?_
  refine (congrArg (fun h => head h (mat x15) (row x16 0) j)
    (funext fun k => gru1_apply (k0_pay3 x0 x3 x4) x2 x9 x10 x11 x12 p k)).trans ?_
  rw [hu]

end Cert.KernelIdeal.BodyRows

end
-- ==== Proof.BlockReads.lean ====
/-
  Where a block sits in its array. The grid has 32 points; point `t` reads rows 512·t … 512·t + 511 of the observations
  and of the two hidden states, and writes the same rows of the four results; every weight and bias window is its whole
  array at every point.
-/
import proofs.«110454_j70712341561351_2_alg».proof.Proof.Gen.KernelIdeal.Frame
import Idealize.ShloMosaic.Lib.ValueIdx
import Idealize.ShloMosaic.Lib.Pipeline.Value

noncomputable section

namespace Cert.KernelIdeal.BlockReads

open Cert.KernelIdeal Cert.KernelIdeal.Gen Idealize.ShloMosaic Idealize.ShloMosaic.ValueIdx Idealize.SL.Sem

variable (m : (ℓ : Loc nD τ sig) → Buf (Elt Ideal) ℓ) (c : Dev nD)

/-- The row-tiled windows' block index at point `t` is `(t, 0)`, decided over the 32 points. -/
theorem idx_row : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0) :=
  (by decide +kernel : ∀ t : Fin grid0.N, _)

/-- The whole-array windows' block index at every point is `(0, 0)`. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-- The array row that row `p` of point `t`'s block is: `512·t + p`. -/
def rowOf (t : Fin cfg0.N) (p : Fin 512) : Fin 16384 :=
  ⟨t.val * 512 + p.val, by have ht : t.val < 32 := t.isLt; have hp := p.isLt; omega⟩

/-- Entry `(p, k)` of window 0's block at point `t` is entry `(512·t + p, k)` of its array. -/
theorem emb0 (t : Fin cfg0.N) (p : Fin 512) (k : Fin 4096) :
    ((cfg0.win 0).blk t).view.emb (ix2 p k) = ix2 (rowOf t p) k := by
  obtain ⟨⟨e0, e1⟩, -, -, -, -, -, -⟩ := idx_row t
  funext a; apply Fin.ext
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- Entry `(p, k)` of window 1's block at point `t` is entry `(512·t + p, k)` of its array. -/
theorem emb1 (t : Fin cfg0.N) (p : Fin 512) (k : Fin 128) :
    ((cfg0.win 1).blk t).view.emb (ix2 p k) = ix2 (rowOf t p) k := by
  obtain ⟨-, ⟨e0, e1⟩, -, -, -, -, -⟩ := idx_row t
  funext a; apply Fin.ext
  match a with
  | ⟨0, _⟩ => show win0_1.index t (0 : Fin 2) * 512 + 1 * p.val = t.val * 512 + p.val; rw [e0]; omega
  | ⟨1, _⟩ => show win0_1.index t (1 : Fin 2) * 128 + 1 * k.val = k.val; rw [e1]; omega

/-- Entry `(p, k)` of window 2's block at point `t` is entry `(512·t + p, k)` of its array. -/
theorem emb2 (t : Fin cfg0.N) (p : Fin 512) (k : Fin 128) :
    ((cfg0.win 2).blk t).view.emb (ix2 p k) = ix2 (rowOf t p) k := by
  obtain ⟨-, -, ⟨e0, e1⟩, -, -, -, -⟩ := idx_row t
  funext a; apply Fin.ext
  match a with
  | ⟨0, _⟩ => show win0_2.index t (0 : Fin 2) * 512 + 1 * p.val = t.val * 512 + p.val; rw [e0]; omega
  | ⟨1, _⟩ => show win0_2.index t (1 : Fin 2) * 128 + 1 * k.val = k.val; rw [e1]; omega

/-- Entry `(p, k)` of window 17's block at point `t` is entry `(512·t + p, k)` of its array. -/
theorem emb17 (t : Fin cfg0.N) (p : Fin 512) (k : Fin 128) :
    ((cfg0.win 17).blk t).view.emb (ix2 p k) = ix2 (rowOf t p) k := by
  obtain ⟨-, -, -, ⟨e0, e1⟩, -, -, -⟩ := idx_row t
  funext a; apply Fin.ext
  match a with
  | ⟨0, _⟩ => show win0_17.index t (0 : Fin 2) * 512 + 1 * p.val = t.val * 512 + p.val; rw [e0]; omega
  | ⟨1, _⟩ => show win0_17.index t (1 : Fin 2) * 128 + 1 * k.val = k.val; rw [e1]; omega

/-- Entry `(p, k)` of window 18's block at point `t` is entry `(512·t + p, k)` of its array. -/
theorem emb18 (t : Fin cfg0.N) (p : Fin 512) (k : Fin 128) :
    ((cfg0.win 18).blk t).view.emb (ix2 p k) = ix2 (rowOf t p) k := by
  obtain ⟨-, -, -, -, ⟨e0, e1⟩, -, -⟩ := idx_row t
  funext a; apply Fin.ext
  match a with
  | ⟨0, _⟩ => show win0_18.index t (0 : Fin 2) * 512 + 1 * p.val = t.val * 512 + p.val; rw [e0]; omega
  | ⟨1, _⟩ => show win0_18.index t (1 : Fin 2) * 128 + 1 * k.val = k.val; rw [e1]; omega

/-- Entry `(p, k)` of window 19's block at point `t` is entry `(512·t + p, k)` of its array. -/
theorem emb19 (t : Fin cfg0.N) (p : Fin 512) (k : Fin 128) :
    ((cfg0.win 19).blk t).view.emb (ix2 p k) = ix2 (rowOf t p) k := by
  obtain ⟨-, -, -, -, -, ⟨e0, e1⟩, -⟩ := idx_row t
  funext a; apply Fin.ext
  match a with
  | ⟨0, _⟩ => show win0_19.index t (0 : Fin 2) * 512 + 1 * p.val = t.val * 512 + p.val; rw [e0]; omega
  | ⟨1, _⟩ => show win0_19.index t (1 : Fin 2) * 128 + 1 * k.val = k.val; rw [e1]; omega

/-- Entry `(p, k)` of window 20's block at point `t` is entry `(512·t + p, k)` of its array. -/
theorem emb20 (t : Fin cfg0.N) (p : Fin 512) (k : Fin 128) :
    ((cfg0.win 20).blk t).view.emb (ix2 p k) = ix2 (rowOf t p) k := by
  obtain ⟨-, -, -, -, -, -, ⟨e0, e1⟩⟩ := idx_row t
  funext a; apply Fin.ext
  match a with
  | ⟨0, _⟩ => show win0_20.index t (0 : Fin 2) * 512 + 1 * p.val = t.val * 512 + p.val; rw [e0]; omega
  | ⟨1, _⟩ => show win0_20.index t (1 : Fin 2) * 128 + 1 * k.val = k.val; rw [e1]; omega

theorem read0 (t : Fin cfg0.N) (p : Fin 512) (k : Fin 4096) :
    iblk m c 0 t (ix2 p k) = V m c main_arg0 (ix2 (rowOf t p) k) := by
  show V m c main_arg0 (((cfg0.win 0).blk t).view.emb (ix2 p k)) = _
  rw [emb0]

theorem read1 (t : Fin cfg0.N) (p : Fin 512) (k : Fin 128) :
    iblk m c 1 t (ix2 p k) = V m c main_arg2 (ix2 (rowOf t p) k) := by
  show V m c main_arg2 (((cfg0.win 1).blk t).view.emb (ix2 p k)) = _
  rw [emb1]

theorem read2 (t : Fin cfg0.N) (p : Fin 512) (k : Fin 128) :
    iblk m c 2 t (ix2 p k) = V m c main_arg3 (ix2 (rowOf t p) k) := by
  show V m c main_arg3 (((cfg0.win 2).blk t).view.emb (ix2 p k)) = _
  rw [emb2]

/-- Window 3's block at every point is its whole array. -/
theorem whole3 (t : Fin cfg0.N) : (iblk m c 3 t : S4096x128.Idx → EReal) = V m c main_arg4 := by
  obtain ⟨⟨e0, e1⟩, -, -, -, -, -, -, -, -, -, -, -, -, -⟩ := idx_whole t
  funext y
  show V m c main_arg4 (((cfg0.win 3).blk t).view.emb y) = V m c main_arg4 y
  refine congrArg _ ?_
  funext a; apply Fin.ext
  match a with
  | ⟨0, _⟩ => show win0_3.index t (0 : Fin 2) * 4096 + 1 * (y 0).val = (y 0).val; rw [e0]; omega
  | ⟨1, _⟩ => show win0_3.index t (1 : Fin 2) * 128 + 1 * (y 1).val = (y 1).val; rw [e1]; omega

/-- Window 4's block at every point is its whole array. -/
theorem whole4 (t : Fin cfg0.N) : (iblk m c 4 t : S1x128.Idx → EReal) = V m c main_v6 := by
  obtain ⟨-, ⟨e0, e1⟩, -, -, -, -, -, -, -, -, -, -, -, -⟩ := idx_whole t
  funext y
  show V m c main_v6 (((cfg0.win 4).blk t).view.emb y) = V m c main_v6 y
  refine congrArg _ ?_
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Window 5's block at every point is its whole array. -/
theorem whole5 (t : Fin cfg0.N) : (iblk m c 5 t : S128x384.Idx → EReal) = V m c main_arg6 := by
  obtain ⟨-, -, ⟨e0, e1⟩, -, -, -, -, -, -, -, -, -, -, -⟩ := idx_whole t
  funext y
  show V m c main_arg6 (((cfg0.win 5).blk t).view.emb y) = V m c main_arg6 y
  refine congrArg _ ?_
  funext a; apply Fin.ext
  match a with
  | ⟨0, _⟩ => show win0_5.index t (0 : Fin 2) * 128 + 1 * (y 0).val = (y 0).val; rw [e0]; omega
  | ⟨1, _⟩ => show win0_5.index t (1 : Fin 2) * 384 + 1 * (y 1).val = (y 1).val; rw [e1]; omega

/-- Window 6's block at every point is its whole array. -/
theorem whole6 (t : Fin cfg0.N) : (iblk m c 6 t : S128x384.Idx → EReal) = V m c main_arg7 := by
  obtain ⟨-, -, -, ⟨e0, e1⟩, -, -, -, -, -, -, -, -, -, -⟩ := idx_whole t
  funext y
  show V m c main_arg7 (((cfg0.win 6).blk t).view.emb y) = V m c main_arg7 y
  refine congrArg _ ?_
  funext a; apply Fin.ext
  match a with
  | ⟨0, _⟩ => show win0_6.index t (0 : Fin 2) * 128 + 1 * (y 0).val = (y 0).val; rw [e0]; omega
  | ⟨1, _⟩ => show win0_6.index t (1 : Fin 2) * 384 + 1 * (y 1).val = (y 1).val; rw [e1]; omega

/-- Window 7's block at every point is its whole array. -/
theorem whole7 (t : Fin cfg0.N) : (iblk m c 7 t : S1x384.Idx → EReal) = V m c main_v7 := by
  obtain ⟨-, -, -, -, ⟨e0, e1⟩, -, -, -, -, -, -, -, -, -⟩ := idx_whole t
  funext y
  show V m c main_v7 (((cfg0.win 7).blk t).view.emb y) = V m c main_v7 y
  refine congrArg _ ?_
  funext a; apply Fin.ext
  match a with
  | ⟨0, _⟩ => show win0_7.index t (0 : Fin 2) * 1 + 1 * (y 0).val = (y 0).val; rw [e0]; omega
  | ⟨1, _⟩ => show win0_7.index t (1 : Fin 2) * 384 + 1 * (y 1).val = (y 1).val; rw [e1]; omega

/-- Window 8's block at every point is its whole array. -/
theorem whole8 (t : Fin cfg0.N) : (iblk m c 8 t : S1x384.Idx → EReal) = V m c main_v8 := by
  obtain ⟨-, -, -, -, -, ⟨e0, e1⟩, -, -, -, -, -, -, -, -⟩ := idx_whole t
  funext y
  show V m c main_v8 (((cfg0.win 8).blk t).view.emb y) = V m c main_v8 y
  refine congrArg _ ?_
  funext a; apply Fin.ext
  match a with
  | ⟨0, _⟩ => show win0_8.index t (0 : Fin 2) * 1 + 1 * (y 0).val = (y 0).val; rw [e0]; omega
  | ⟨1, _⟩ => show win0_8.index t (1 : Fin 2) * 384 + 1 * (y 1).val = (y 1).val; rw [e1]; omega

/-- Window 9's block at every point is its whole array. -/
theorem whole9 (t : Fin cfg0.N) : (iblk m c 9 t : S256x384.Idx → EReal) = V m c main_arg10 := by
  obtain ⟨-, -, -, -, -, -, ⟨e0, e1⟩, -, -, -, -, -, -, -⟩ := idx_whole t
  funext y
  show V m c main_arg10 (((cfg0.win 9).blk t).view.emb y) = V m c main_arg10 y
  refine congrArg _ ?_
  funext a; apply Fin.ext
  match a with
  | ⟨0, _⟩ => show win0_9.index t (0 : Fin 2) * 256 + 1 * (y 0).val = (y 0).val; rw [e0]; omega
  | ⟨1, _⟩ => show win0_9.index t (1 : Fin 2) * 384 + 1 * (y 1).val = (y 1).val; rw [e1]; omega

/-- Window 10's block at every point is its whole array. -/
theorem whole10 (t : Fin cfg0.N) : (iblk m c 10 t : S128x384.Idx → EReal) = V m c main_arg11 := by
  obtain ⟨-, -, -, -, -, -, -, ⟨e0, e1⟩, -, -, -, -, -, -⟩ := idx_whole t
  funext y
  show V m c main_arg11 (((cfg0.win 10).blk t).view.emb y) = V m c main_arg11 y
  refine congrArg _ ?_
  funext a; apply Fin.ext
  match a with
  | ⟨0, _⟩ => show win0_10.index t (0 : Fin 2) * 128 + 1 * (y 0).val = (y 0).val; rw [e0]; omega
  | ⟨1, _⟩ => show win0_10.index t (1 : Fin 2) * 384 + 1 * (y 1).val = (y 1).val; rw [e1]; omega

/-- Window 11's block at every point is its whole array. -/
theorem whole11 (t : Fin cfg0.N) : (iblk m c 11 t : S1x384.Idx → EReal) = V m c main_v9 := by
  obtain ⟨-, -, -, -, -, -, -, -, ⟨e0, e1⟩, -, -, -, -, -⟩ := idx_whole t
  funext y
  show V m c main_v9 (((cfg0.win 11).blk t).view.emb y) = V m c main_v9 y
  refine congrArg _ ?_
  funext a; apply Fin.ext
  match a with
  | ⟨0, _⟩ => show win0_11.index t (0 : Fin 2) * 1 + 1 * (y 0).val = (y 0).val; rw [e0]; omega
  | ⟨1, _⟩ => show win0_11.index t (1 : Fin 2) * 384 + 1 * (y 1).val = (y 1).val; rw [e1]; omega

/-- Window 12's block at every point is its whole array. -/
theorem whole12 (t : Fin cfg0.N) : (iblk m c 12 t : S1x384.Idx → EReal) = V m c main_v10 := by
  obtain ⟨-, -, -, -, -, -, -, -, -, ⟨e0, e1⟩, -, -, -, -⟩ := idx_whole t
  funext y
  show V m c main_v10 (((cfg0.win 12).blk t).view.emb y) = V m c main_v10 y
  refine congrArg _ ?_
  funext a; apply Fin.ext
  match a with
  | ⟨0, _⟩ => show win0_12.index t (0 : Fin 2) * 1 + 1 * (y 0).val = (y 0).val; rw [e0]; omega
  | ⟨1, _⟩ => show win0_12.index t (1 : Fin 2) * 384 + 1 * (y 1).val = (y 1).val; rw [e1]; omega

/-- Window 13's block at every point is its whole array. -/
theorem whole13 (t : Fin cfg0.N) : (iblk m c 13 t : S128x128.Idx → EReal) = V m c main_v0 := by
  obtain ⟨-, -, -, -, -, -, -, -, -, -, ⟨e0, e1⟩, -, -, -⟩ := idx_whole t
  funext y
  show V m c main_v0 (((cfg0.win 13).blk t).view.emb y) = V m c main_v0 y
  refine congrArg _ ?_
  funext a; apply Fin.ext
  match a with
  | ⟨0, _⟩ => show win0_13.index t (0 : Fin 2) * 128 + 1 * (y 0).val = (y 0).val; rw [e0]; omega
  | ⟨1, _⟩ => show win0_13.index t (1 : Fin 2) * 128 + 1 * (y 1).val = (y 1).val; rw [e1]; omega

/-- Window 14's block at every point is its whole array. -/
theorem whole14 (t : Fin cfg0.N) : (iblk m c 14 t : S1x128.Idx → EReal) = V m c main_v2 := by
  obtain ⟨-, -, -, -, -, -, -, -, -, -, -, ⟨e0, e1⟩, -, -⟩ := idx_whole t
  funext y
  show V m c main_v2 (((cfg0.win 14).blk t).view.emb y) = V m c main_v2 y
  refine congrArg _ ?_
  funext a; apply Fin.ext
  match a with
  | ⟨0, _⟩ => show win0_14.index t (0 : Fin 2) * 1 + 1 * (y 0).val = (y 0).val; rw [e0]; omega
  | ⟨1, _⟩ => show win0_14.index t (1 : Fin 2) * 128 + 1 * (y 1).val = (y 1).val; rw [e1]; omega

/-- Window 15's block at every point is its whole array. -/
theorem whole15 (t : Fin cfg0.N) : (iblk m c 15 t : S128x128.Idx → EReal) = V m c main_v3 := by
  obtain ⟨-, -, -, -, -, -, -, -, -, -, -, -, ⟨e0, e1⟩, -⟩ := idx_whole t
  funext y
  show V m c main_v3 (((cfg0.win 15).blk t).view.emb y) = V m c main_v3 y
  refine congrArg _ ?_
  funext a; apply Fin.ext
  match a with
  | ⟨0, _⟩ => show win0_15.index t (0 : Fin 2) * 128 + 1 * (y 0).val = (y 0).val; rw [e0]; omega
  | ⟨1, _⟩ => show win0_15.index t (1 : Fin 2) * 128 + 1 * (y 1).val = (y 1).val; rw [e1]; omega

/-- Window 16's block at every point is its whole array. -/
theorem whole16 (t : Fin cfg0.N) : (iblk m c 16 t : S1x128.Idx → EReal) = V m c main_v5 := by
  obtain ⟨-, -, -, -, -, -, -, -, -, -, -, -, -, ⟨e0, e1⟩⟩ := idx_whole t
  funext y
  show V m c main_v5 (((cfg0.win 16).blk t).view.emb y) = V m c main_v5 y
  refine congrArg _ ?_
  funext a; apply Fin.ext
  match a with
  | ⟨0, _⟩ => show win0_16.index t (0 : Fin 2) * 1 + 1 * (y 0).val = (y 0).val; rw [e0]; omega
  | ⟨1, _⟩ => show win0_16.index t (1 : Fin 2) * 128 + 1 * (y 1).val = (y 1).val; rw [e1]; omega

end Cert.KernelIdeal.BlockReads

end
-- ==== Proof.Blocks.lean ====
/-
  From blocks to arrays. Each of the four result arrays, after the run, is ONE function of what the region finds in its
  windows: row `r` of the result is the row-wise mathematics of `Spec` applied to row `r` of the observations and hidden
  states. Point `t` writes back rows 512·t … 512·t + 511 of that function, and the 32 points' blocks cover all 16384 rows.
-/
import proofs.«110454_j70712341561351_2_alg».proof.Proof.Gen.KernelIdeal.Frame
import proofs.«110454_j70712341561351_2_alg».proof.Proof.Spec
import proofs.«110454_j70712341561351_2_alg».proof.Proof.Results
import proofs.«110454_j70712341561351_2_alg».proof.Proof.BodyRows
import proofs.«110454_j70712341561351_2_alg».proof.Proof.BlockReads
import Idealize.ShloMosaic.Lib.ValueIdx
import Idealize.ShloMosaic.Lib.Pipeline.Value

noncomputable section

namespace Cert.KernelIdeal.Blocks

open Cert.KernelIdeal Cert.KernelIdeal.Gen Cert.KernelIdeal.BlockReads Cert.KernelIdeal.Results Cert.Spec Idealize.ShloMosaic Idealize.ShloMosaic.ValueIdx Idealize.SL.Sem

variable (m : (ℓ : Loc nD τ sig) → Buf (Elt Ideal) ℓ) (c : Dev nD)

/-- Entry (p, q) of what the body leaves of layer 0's new hidden state at point `t` is entry (512·t + p, q) of `G19`: the row-tiled windows' rows
    are rows 512·t + p of their arrays, the other windows are their arrays whole. -/
theorem blk19 (t : Fin cfg0.N) (p : Fin 512) (q : Fin 128) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = G19 m c (ix2 (rowOf t p) q) := by
  refine (BodyRows.out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  have r0 : row (iblk m c 0 t : S512x4096.Idx → EReal) p = row (V m c main_arg0) (rowOf t p) := funext fun k => read0 m c t p k
  have r1 : row (iblk m c 1 t : S512x128.Idx → EReal) p = row (V m c main_arg2) (rowOf t p) := funext fun k => read1 m c t p k
  rw [r0, r1, whole3 m c t, whole4 m c t, whole5 m c t, whole6 m c t, whole7 m c t, whole8 m c t]
  rfl

/-- What point `t` writes back of layer 0's new hidden state is block `t` of `G19`. -/
theorem flushed19_eq (t : Fin cfg0.N) :
    (dats m 0 c).flushed 19 t = ((cfg0.win 19).blk t).view.read (Elt Ideal) (G19 m c) := by
  show (cfg0.win 19).cut (grid0.coords t) ((dats m 0 c).after 19 t) = _
  rw [after0_19]
  funext j
  obtain ⟨p, q, rfl⟩ : ∃ (p : Fin 512) (q : Fin 128), j = ix2 p q := ⟨j 0, j 1, eq_ix2 j⟩
  refine (blk19 m c t p q).trans ?_
  show _ = G19 m c (((cfg0.win 19).blk t).view.emb (ix2 p q))
  rw [emb19]

/-- Entry (p, q) of what the body leaves of layer 0's packed heads at point `t` is entry (512·t + p, q) of `G17`: the row-tiled windows' rows
    are rows 512·t + p of their arrays, the other windows are their arrays whole. -/
theorem blk17 (t : Fin cfg0.N) (p : Fin 512) (q : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = G17 m c (ix2 (rowOf t p) q) := by
  refine (BodyRows.out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  have r0 : row (iblk m c 0 t : S512x4096.Idx → EReal) p = row (V m c main_arg0) (rowOf t p) := funext fun k => read0 m c t p k
  have r1 : row (iblk m c 1 t : S512x128.Idx → EReal) p = row (V m c main_arg2) (rowOf t p) := funext fun k => read1 m c t p k
  rw [r0, r1, whole3 m c t, whole4 m c t, whole5 m c t, whole6 m c t, whole7 m c t, whole8 m c t, whole13 m c t, whole14 m c t]
  rfl

/-- What point `t` writes back of layer 0's packed heads is block `t` of `G17`. -/
theorem flushed17_eq (t : Fin cfg0.N) :
    (dats m 0 c).flushed 17 t = ((cfg0.win 17).blk t).view.read (Elt Ideal) (G17 m c) := by
  show (cfg0.win 17).cut (grid0.coords t) ((dats m 0 c).after 17 t) = _
  rw [after0_17]
  funext j
  obtain ⟨p, q, rfl⟩ : ∃ (p : Fin 512) (q : Fin 128), j = ix2 p q := ⟨j 0, j 1, eq_ix2 j⟩
  refine (blk17 m c t p q).trans ?_
  show _ = G17 m c (((cfg0.win 17).blk t).view.emb (ix2 p q))
  rw [emb17]

/-- Entry (p, q) of what the body leaves of layer 1's new hidden state at point `t` is entry (512·t + p, q) of `G20`: the row-tiled windows' rows
    are rows 512·t + p of their arrays, the other windows are their arrays whole. -/
theorem blk20 (t : Fin cfg0.N) (p : Fin 512) (q : Fin 128) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = G20 m c (ix2 (rowOf t p) q) := by
  refine (BodyRows.out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  have r0 : row (iblk m c 0 t : S512x4096.Idx → EReal) p = row (V m c main_arg0) (rowOf t p) := funext fun k => read0 m c t p k
  have r2 : row (iblk m c 2 t : S512x128.Idx → EReal) p = row (V m c main_arg3) (rowOf t p) := funext fun k => read2 m c t p k
  rw [r0, r2, whole3 m c t, whole4 m c t, whole9 m c t, whole10 m c t, whole11 m c t, whole12 m c t]
  rfl

/-- What point `t` writes back of layer 1's new hidden state is block `t` of `G20`. -/
theorem flushed20_eq (t : Fin cfg0.N) :
    (dats m 0 c).flushed 20 t = ((cfg0.win 20).blk t).view.read (Elt Ideal) (G20 m c) := by
  show (cfg0.win 20).cut (grid0.coords t) ((dats m 0 c).after 20 t) = _
  rw [after0_20]
  funext j
  obtain ⟨p, q, rfl⟩ : ∃ (p : Fin 512) (q : Fin 128), j = ix2 p q := ⟨j 0, j 1, eq_ix2 j⟩
  refine (blk20 m c t p q).trans ?_
  show _ = G20 m c (((cfg0.win 20).blk t).view.emb (ix2 p q))
  rw [emb20]

/-- Entry (p, q) of what the body leaves of layer 1's padded value head at point `t` is entry (512·t + p, q) of `G18`: the row-tiled windows' rows
    are rows 512·t + p of their arrays, the other windows are their arrays whole. -/
theorem blk18 (t : Fin cfg0.N) (p : Fin 512) (q : Fin 128) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 p q) = G18 m c (ix2 (rowOf t p) q) := by
  refine (BodyRows.out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p q).trans ?_
  have r0 : row (iblk m c 0 t : S512x4096.Idx → EReal) p = row (V m c main_arg0) (rowOf t p) := funext fun k => read0 m c t p k
  have r2 : row (iblk m c 2 t : S512x128.Idx → EReal) p = row (V m c main_arg3) (rowOf t p) := funext fun k => read2 m c t p k
  rw [r0, r2, whole3 m c t, whole4 m c t, whole9 m c t, whole10 m c t, whole11 m c t, whole12 m c t, whole15 m c t, whole16 m c t]
  rfl

/-- What point `t` writes back of layer 1's padded value head is block `t` of `G18`. -/
theorem flushed18_eq (t : Fin cfg0.N) :
    (dats m 0 c).flushed 18 t = ((cfg0.win 18).blk t).view.read (Elt Ideal) (G18 m c) := by
  show (cfg0.win 18).cut (grid0.coords t) ((dats m 0 c).after 18 t) = _
  rw [after0_18]
  funext j
  obtain ⟨p, q, rfl⟩ : ∃ (p : Fin 512) (q : Fin 128), j = ix2 p q := ⟨j 0, j 1, eq_ix2 j⟩
  refine (blk18 m c t p q).trans ?_
  show _ = G18 m c (((cfg0.win 18).blk t).view.emb (ix2 p q))
  rw [emb18]

/-- An index of a result array is in point `t`'s block iff each coordinate is in the block's range on its axis. -/
theorem mem_blk19 (t : Fin cfg0.N) (i : S16384x128.Idx) :
    i ∈ ((cfg0.win 19).blk t).view.set ↔ ∀ a : Fin 2, win0_19.index t a * S512x128.size a ≤ (i a).val ∧ (i a).val < win0_19.index t a * S512x128.size a + S512x128.size a := by
  show i ∈ ((View.whole main_v11_2).slice (win0_19.rect t)).set ↔ _
  rw [View.set_slice_whole, Rect.mem_set_unit]
  exact Iff.rfl

theorem mem_blk17 (t : Fin cfg0.N) (i : S16384x128.Idx) :
    i ∈ ((cfg0.win 17).blk t).view.set ↔ ∀ a : Fin 2, win0_17.index t a * S512x128.size a ≤ (i a).val ∧ (i a).val < win0_17.index t a * S512x128.size a + S512x128.size a := by
  show i ∈ ((View.whole main_v11_0).slice (win0_17.rect t)).set ↔ _
  rw [View.set_slice_whole, Rect.mem_set_unit]
  exact Iff.rfl

theorem mem_blk20 (t : Fin cfg0.N) (i : S16384x128.Idx) :
    i ∈ ((cfg0.win 20).blk t).view.set ↔ ∀ a : Fin 2, win0_20.index t a * S512x128.size a ≤ (i a).val ∧ (i a).val < win0_20.index t a * S512x128.size a + S512x128.size a := by
  show i ∈ ((View.whole main_v11_3).slice (win0_20.rect t)).set ↔ _
  rw [View.set_slice_whole, Rect.mem_set_unit]
  exact Iff.rfl

theorem mem_blk18 (t : Fin cfg0.N) (i : S16384x128.Idx) :
    i ∈ ((cfg0.win 18).blk t).view.set ↔ ∀ a : Fin 2, win0_18.index t a * S512x128.size a ≤ (i a).val ∧ (i a).val < win0_18.index t a * S512x128.size a + S512x128.size a := by
  show i ∈ ((View.whole main_v11_1).slice (win0_18.rect t)).set ↔ _
  rw [View.set_slice_whole, Rect.mem_set_unit]
  exact Iff.rfl

/-- Every row of the array is in the block of the point `row / 512`. -/
theorem cover19 (i : S16384x128.Idx) :
    ∃ t : Fin cfg0.N, (cfg0.win 19).flush t = true ∧ i ∈ ((cfg0.win 19).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  obtain ⟨-, -, -, -, -, ⟨e0, e1⟩, -⟩ := idx_row t
  refine ⟨t, flush0_19 t, ?_⟩
  rw [mem_blk19]
  intro a
  match a with
  | ⟨0, _⟩ =>
    show win0_19.index t (0 : Fin 2) * 512 ≤ (i 0).val ∧ (i 0).val < win0_19.index t (0 : Fin 2) * 512 + 512
    rw [e0]
    show (i 0).val / 512 * 512 ≤ (i 0).val ∧ (i 0).val < (i 0).val / 512 * 512 + 512
    omega
  | ⟨1, _⟩ =>
    show win0_19.index t (1 : Fin 2) * 128 ≤ (i 1).val ∧ (i 1).val < win0_19.index t (1 : Fin 2) * 128 + 128
    rw [e1]
    omega

/-- The array of layer 0's new hidden state after the run. -/
theorem final19 : (dats m 0 c).arrAt 19 cfg0.N = G19 m c :=
  (dats m 0 c).arrAt_eq_of_cover 19 (G19 m c) (fun t _ => flushed19_eq m c t) (cover19)

/-- Every row of the array is in the block of the point `row / 512`. -/
theorem cover17 (i : S16384x128.Idx) :
    ∃ t : Fin cfg0.N, (cfg0.win 17).flush t = true ∧ i ∈ ((cfg0.win 17).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  obtain ⟨-, -, -, ⟨e0, e1⟩, -, -, -⟩ := idx_row t
  refine ⟨t, flush0_17 t, ?_⟩
  rw [mem_blk17]
  intro a
  match a with
  | ⟨0, _⟩ =>
    show win0_17.index t (0 : Fin 2) * 512 ≤ (i 0).val ∧ (i 0).val < win0_17.index t (0 : Fin 2) * 512 + 512
    rw [e0]
    show (i 0).val / 512 * 512 ≤ (i 0).val ∧ (i 0).val < (i 0).val / 512 * 512 + 512
    omega
  | ⟨1, _⟩ =>
    show win0_17.index t (1 : Fin 2) * 128 ≤ (i 1).val ∧ (i 1).val < win0_17.index t (1 : Fin 2) * 128 + 128
    rw [e1]
    omega

/-- The array of layer 0's packed heads after the run. -/
theorem final17 : (dats m 0 c).arrAt 17 cfg0.N = G17 m c :=
  (dats m 0 c).arrAt_eq_of_cover 17 (G17 m c) (fun t _ => flushed17_eq m c t) (cover17)

/-- Every row of the array is in the block of the point `row / 512`. -/
theorem cover20 (i : S16384x128.Idx) :
    ∃ t : Fin cfg0.N, (cfg0.win 20).flush t = true ∧ i ∈ ((cfg0.win 20).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  obtain ⟨-, -, -, -, -, -, ⟨e0, e1⟩⟩ := idx_row t
  refine ⟨t, flush0_20 t, ?_⟩
  rw [mem_blk20]
  intro a
  match a with
  | ⟨0, _⟩ =>
    show win0_20.index t (0 : Fin 2) * 512 ≤ (i 0).val ∧ (i 0).val < win0_20.index t (0 : Fin 2) * 512 + 512
    rw [e0]
    show (i 0).val / 512 * 512 ≤ (i 0).val ∧ (i 0).val < (i 0).val / 512 * 512 + 512
    omega
  | ⟨1, _⟩ =>
    show win0_20.index t (1 : Fin 2) * 128 ≤ (i 1).val ∧ (i 1).val < win0_20.index t (1 : Fin 2) * 128 + 128
    rw [e1]
    omega

/-- The array of layer 1's new hidden state after the run. -/
theorem final20 : (dats m 0 c).arrAt 20 cfg0.N = G20 m c :=
  (dats m 0 c).arrAt_eq_of_cover 20 (G20 m c) (fun t _ => flushed20_eq m c t) (cover20)

/-- Every row of the array is in the block of the point `row / 512`. -/
theorem cover18 (i : S16384x128.Idx) :
    ∃ t : Fin cfg0.N, (cfg0.win 18).flush t = true ∧ i ∈ ((cfg0.win 18).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  obtain ⟨-, -, -, -, ⟨e0, e1⟩, -, -⟩ := idx_row t
  refine ⟨t, flush0_18 t, ?_⟩
  rw [mem_blk18]
  intro a
  match a with
  | ⟨0, _⟩ =>
    show win0_18.index t (0 : Fin 2) * 512 ≤ (i 0).val ∧ (i 0).val < win0_18.index t (0 : Fin 2) * 512 + 512
    rw [e0]
    show (i 0).val / 512 * 512 ≤ (i 0).val ∧ (i 0).val < (i 0).val / 512 * 512 + 512
    omega
  | ⟨1, _⟩ =>
    show win0_18.index t (1 : Fin 2) * 128 ≤ (i 1).val ∧ (i 1).val < win0_18.index t (1 : Fin 2) * 128 + 128
    rw [e1]
    omega

/-- The array of layer 1's padded value head after the run. -/
theorem final18 : (dats m 0 c).arrAt 18 cfg0.N = G18 m c :=
  (dats m 0 c).arrAt_eq_of_cover 18 (G18 m c) (fun t _ => flushed18_eq m c t) (cover18)

end Cert.KernelIdeal.Blocks

end
-- ==== Proof.TermP.lean ====
/-
  The termination probability of the chosen option, from the termination logits: the logistic function 1 / (1 + e^(−t)) of
  every logit, then for each row the entry at that row's chosen column — a negative column counted from the end (64 added),
  and a column outside 0 … 63 giving the float word 0x7FC00000. The reference computes this from its own logits, the
  kernel's host tail from the last 64 columns of the packed head: the SAME operations, so one function of the logits and
  of the chosen columns.
-/
import proofs.«110454_j70712341561351_2_alg».proof.Proof.RefReadP

noncomputable section

namespace Cert.TermP

open Cert.ReferenceIdeal Cert.ReferenceIdeal.Read Idealize.ShloMosaic

/-- The chosen option's termination probability, as the host operations spell it. -/
def termP (logit : FVec Ideal S16384x64 .f32) (x1 : IVec S16384 32) : FVec Ideal S16384x1 .f32 :=
  select (val_main_call0_v12 (F := Ideal) x1)
    (Host.gather gather_S16384x64_S16384x1x1_S16384x1_n_1_0_0_1_2_11
      (Host.divf (F := Ideal) (φ := .f32) (val_main_v59 (F := Ideal)) (addf (F := Ideal) (φ := .f32) (val_main_v57 (F := Ideal)) (Host.exp (F := Ideal) (φ := .f32) (Host.negf (F := Ideal) (φ := .f32) logit))))
      (val_main_call0_v5 (F := Ideal) x1))
    (val_main_call0_v14 (F := Ideal))

/-- The reference's second result is that function of its own termination logits. -/
theorem ref_termP (x0 : (⟨S16384x4096, .f32⟩ : BufTy).Contents (Elt Ideal)) (x1 : (⟨S16384, .i32⟩ : BufTy).Contents (Elt Ideal)) (x2 : (⟨S16384x128, .f32⟩ : BufTy).Contents (Elt Ideal)) (x4 : (⟨S4096x128, .f32⟩ : BufTy).Contents (Elt Ideal)) (x5 : (⟨S128, .f32⟩ : BufTy).Contents (Elt Ideal))
    (x6 x7 : (⟨S128x384, .f32⟩ : BufTy).Contents (Elt Ideal)) (x8 x9 : (⟨S384, .f32⟩ : BufTy).Contents (Elt Ideal)) (x18 : (⟨S128x64, .f32⟩ : BufTy).Contents (Elt Ideal)) (x19 : (⟨S64, .f32⟩ : BufTy).Contents (Elt Ideal)) :
    val_main_v62 (F := Ideal) x0 x1 x2 x4 x5 x6 x7 x8 x9 x18 x19
      = termP (val_main_v54 (F := Ideal) x0 x2 x4 x5 x6 x7 x8 x9 x18 x19) x1 := rfl

end Cert.TermP

end
-- ==== Proof.Tail.lean ====
/-
  The host operations after the region, read at the three results they produce: the value heads are the first 64
  columns of the packed and of the padded head arrays the region leaves; the chosen option's termination probability is
  `TermP.termP` of the packed head's last 64 columns and of the chosen columns.
-/
import proofs.«110454_j70712341561351_2_alg».proof.Proof.Gen.KernelIdeal.Frame
import proofs.«110454_j70712341561351_2_alg».proof.Proof.TermP
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.StableHlo Idealize.SL.Sem

variable (m : (ℓ : Loc nD τ sig) → Buf (Elt Ideal) ℓ) (c : Dev nD)

/-- After the region the packed head's array is what the run left in it. -/
theorem arr17 : Pipeline.withArrays (cfgs 0).spec c (V0 m c) (fun w => (dats m 0 c).arrAt w (cfgs 0).N) (Proc.devRef .tc main_v11_0) = (dats m 0 c).arrAt 17 cfg0.N :=
  Pipeline.withArrays_arr spec0 launch0.win.arr_inj c _ _ 17

/-- After the region the padded head's array is what the run left in it. -/
theorem arr18 : Pipeline.withArrays (cfgs 0).spec c (V0 m c) (fun w => (dats m 0 c).arrAt w (cfgs 0).N) (Proc.devRef .tc main_v11_1) = (dats m 0 c).arrAt 18 cfg0.N :=
  Pipeline.withArrays_arr spec0 launch0.win.arr_inj c _ _ 18

/-- The chosen columns are no window's array and no host operation writes them: they are as launched. -/
theorem arr_arg1 : Pipeline.withArrays (cfgs 0).spec c (V0 m c) (fun w => (dats m 0 c).arrAt w (cfgs 0).N) (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)

set_option maxHeartbeats 4000000 in
/-- Layer 0's value head: the packed head's first 64 columns. -/
theorem tail_v12 : Pipeline.afterTail₀ cfgs (dats m) 0 (V0 m) [hostOps1, hostOps1_1, hostOps1_2] c main_v12
    = extractStridedSlice S16384x64 ![0, 0] ((dats m 0 c).arrAt 17 cfg0.N) slices_S16384x128_S16384x64_0_0 := by
  unfold Pipeline.afterTail₀
  simp only [hostOps1, hostOps1_1, hostOps1_2, List.flatten_cons, List.flatten_nil, List.append_nil, List.cons_append, List.nil_append]
  after_results_simp
  rw [arr17]

set_option maxHeartbeats 4000000 in
/-- Layer 1's value head: the padded head's first 64 columns. -/
theorem tail_v22 : Pipeline.afterTail₀ cfgs (dats m) 0 (V0 m) [hostOps1, hostOps1_1, hostOps1_2] c main_v22
    = extractStridedSlice S16384x64 ![0, 0] ((dats m 0 c).arrAt 18 cfg0.N) slices_S16384x128_S16384x64_0_0 := by
  unfold Pipeline.afterTail₀
  simp only [hostOps1, hostOps1_1, hostOps1_2, List.flatten_cons, List.flatten_nil, List.append_nil, List.cons_append, List.nil_append]
  after_results_simp
  rw [arr18]

set_option maxRecDepth 65536 in
set_option maxHeartbeats 4000000 in
/-- The chosen option's termination probability: `termP` of the packed head's last 64 columns. -/
theorem tail_v21 : Pipeline.afterTail₀ cfgs (dats m) 0 (V0 m) [hostOps1, hostOps1_1, hostOps1_2] c main_v21
    = Cert.TermP.termP (extractStridedSlice S16384x64 ![0, 64] ((dats m 0 c).arrAt 17 cfg0.N) slices_S16384x128_S16384x64_0_64)
        (m ((c.tc : Thread nD τ).loc main_arg1)) := by
  unfold Pipeline.afterTail₀
  simp only [hostOps1, hostOps1_1, hostOps1_2, List.flatten_cons, List.flatten_nil, List.append_nil, List.cons_append, List.nil_append]
  after_results_simp
  rw [arr17, arr_arg1]
  rfl

end Cert.KernelIdeal.Tail

end
-- ==== Proof.KernelRun.lean ====
/-
  The kernel's program, run: every weakly fair execution terminates with the five results at the whole-array functions
  of `Results` — the value heads the first 64 columns of the packed and padded head arrays, the termination probability
  `termP` of the packed head's last 64 columns, the two new hidden states the region's arrays themselves — and the
  arguments unchanged.
-/
import proofs.«110454_j70712341561351_2_alg».proof.Proof.Gen.KernelIdeal.Frame
import proofs.«110454_j70712341561351_2_alg».proof.Proof.Results
import proofs.«110454_j70712341561351_2_alg».proof.Proof.Blocks
import proofs.«110454_j70712341561351_2_alg».proof.Proof.Tail

noncomputable section

namespace Cert.KernelIdeal.KernelRun

open Cert.KernelIdeal Cert.KernelIdeal.Gen Cert.KernelIdeal.Results Idealize.ShloMosaic Idealize.SL.Sem

variable (m : (ℓ : Loc nD τ sig) → Buf (Elt Ideal) ℓ) (ρ : Dev nD → PrngReg)

/-- Layer 0's value head after the host tail: the first 64 columns of `G17`. -/
theorem res_v12 (c : Dev nD) : Pipeline.afterTail₀ cfgs (dats m) 0 (V0 m) [hostOps1, hostOps1_1, hostOps1_2] c main_v12
    = extractStridedSlice S16384x64 ![0, 0] (G17 m c) slices_S16384x128_S16384x64_0_0 :=
  (Tail.tail_v12 m c).trans
    (congrArg (fun A : S16384x128.Idx → EReal => extractStridedSlice S16384x64 ![0, 0] A slices_S16384x128_S16384x64_0_0) (Blocks.final17 m c))

/-- The chosen option's termination probability after the host tail: `termP` of the last 64 columns of `G17`. -/
theorem res_v21 (c : Dev nD) : Pipeline.afterTail₀ cfgs (dats m) 0 (V0 m) [hostOps1, hostOps1_1, hostOps1_2] c main_v21
    = Cert.TermP.termP (extractStridedSlice S16384x64 ![0, 64] (G17 m c) slices_S16384x128_S16384x64_0_64) (m ((c.tc : Thread nD τ).loc main_arg1)) :=
  by rw [Tail.tail_v21 m c, Blocks.final17 m c]

/-- Layer 1's value head after the host tail: the first 64 columns of `G18`. -/
theorem res_v22 (c : Dev nD) : Pipeline.afterTail₀ cfgs (dats m) 0 (V0 m) [hostOps1, hostOps1_1, hostOps1_2] c main_v22
    = extractStridedSlice S16384x64 ![0, 0] (G18 m c) slices_S16384x128_S16384x64_0_0 :=
  (Tail.tail_v22 m c).trans
    (congrArg (fun A : S16384x128.Idx → EReal => extractStridedSlice S16384x64 ![0, 0] A slices_S16384x128_S16384x64_0_0) (Blocks.final18 m c))

set_option maxHeartbeats 1000000 in
set_option backward.isDefEq.respectTransparency.types false in
/-- The frame run with each result named. -/
theorem run : θ_run defs (onTc (τ := τ) (main (F := Ideal))) ⟨m, fun _ => 0, ρ⟩ (fun r => ∀ c : Dev nD,
      r.2.mem ((c.tc : Thread nD τ).loc main_v12) = extractStridedSlice S16384x64 ![0, 0] (G17 m c) slices_S16384x128_S16384x64_0_0
      ∧ r.2.mem ((c.tc : Thread nD τ).loc main_v21) = Cert.TermP.termP (extractStridedSlice S16384x64 ![0, 64] (G17 m c) slices_S16384x128_S16384x64_0_64) (m ((c.tc : Thread nD τ).loc main_arg1))
      ∧ r.2.mem ((c.tc : Thread nD τ).loc main_v22) = extractStridedSlice S16384x64 ![0, 0] (G18 m c) slices_S16384x128_S16384x64_0_0
      ∧ r.2.mem ((c.tc : Thread nD τ).loc main_v11_2) = G19 m c
      ∧ r.2.mem ((c.tc : Thread nD τ).loc main_v11_3) = G20 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨
      ((h c).2 main_v12 (Pipeline.mem_restRefs_of main_v12 (by decide) (by decide))).trans (res_v12 m c),
      ((h c).2 main_v21 (Pipeline.mem_restRefs_of main_v21 (by decide) (by decide))).trans (res_v21 m c),
      ((h c).2 main_v22 (Pipeline.mem_restRefs_of main_v22 (by decide) (by decide))).trans (res_v22 m c),
      ((h c).1 19).trans (Blocks.final19 m c),
      ((h c).1 20).trans (Blocks.final20 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c))⟩) (run_main m ρ)

end Cert.KernelIdeal.KernelRun

end
-- ==== Proof.Windows.lean ====
/-
  What the region finds in the windows the host fills before it: each bias as the one row of a [1, n] array; layer 0's
  two heads packed side by side (value columns 0 … 63, termination columns 64 … 127) with their biases packed the same
  way; layer 1's value head with 64 zero columns behind it, and its bias with 64 zeros behind it.
-/
import proofs.«110454_j70712341561351_2_alg».proof.Proof.Gen.KernelIdeal.Frame
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.Windows

open Cert.KernelIdeal Cert.KernelIdeal.Gen Idealize.ShloMosaic Idealize.ShloMosaic.ValueIdx Idealize.ShloMosaic.StableHlo Idealize.SL.Sem

variable (m : (ℓ : Loc nD τ sig) → Buf (Elt Ideal) ℓ) (c : Dev nD)

/-- Column `j` of the first 64 and of the last 64 among 128 columns. -/
def colL (j : Fin 64) : Fin 128 := ⟨j.val, by omega⟩
def colR (j : Fin 64) : Fin 128 := ⟨64 + j.val, by omega⟩

/-- The window `main_v6` is argument 5 as one row. -/
theorem V_v6 : (V m c main_v6 : S1x128.Idx → EReal) = shapeCast S1x128 ((m ((c.tc : Thread nD τ).loc main_arg5)) : S128.Idx → EReal) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v6_row (j : Fin 128) : V m c main_v6 (ix2 (0 : Fin 1) j) = (m ((c.tc : Thread nD τ).loc main_arg5)) (ix1 j) := by
  rw [V_v6]
  exact shapeCast_a_1a_apply _ _ _ _

/-- The window `main_v7` is argument 8 as one row. -/
theorem V_v7 : (V m c main_v7 : S1x384.Idx → EReal) = shapeCast S1x384 ((m ((c.tc : Thread nD τ).loc main_arg8)) : S384.Idx → EReal) shapeCasts_S384_S1x384 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v7_row (j : Fin 384) : V m c main_v7 (ix2 (0 : Fin 1) j) = (m ((c.tc : Thread nD τ).loc main_arg8)) (ix1 j) := by
  rw [V_v7]
  exact shapeCast_a_1a_apply _ _ _ _

/-- The window `main_v8` is argument 9 as one row. -/
theorem V_v8 : (V m c main_v8 : S1x384.Idx → EReal) = shapeCast S1x384 ((m ((c.tc : Thread nD τ).loc main_arg9)) : S384.Idx → EReal) shapeCasts_S384_S1x384 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v8_row (j : Fin 384) : V m c main_v8 (ix2 (0 : Fin 1) j) = (m ((c.tc : Thread nD τ).loc main_arg9)) (ix1 j) := by
  rw [V_v8]
  exact shapeCast_a_1a_apply _ _ _ _

/-- The window `main_v9` is argument 12 as one row. -/
theorem V_v9 : (V m c main_v9 : S1x384.Idx → EReal) = shapeCast S1x384 ((m ((c.tc : Thread nD τ).loc main_arg12)) : S384.Idx → EReal) shapeCasts_S384_S1x384 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v9_row (j : Fin 384) : V m c main_v9 (ix2 (0 : Fin 1) j) = (m ((c.tc : Thread nD τ).loc main_arg12)) (ix1 j) := by
  rw [V_v9]
  exact shapeCast_a_1a_apply _ _ _ _

/-- The window `main_v10` is argument 13 as one row. -/
theorem V_v10 : (V m c main_v10 : S1x384.Idx → EReal) = shapeCast S1x384 ((m ((c.tc : Thread nD τ).loc main_arg13)) : S384.Idx → EReal) shapeCasts_S384_S1x384 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v10_row (j : Fin 384) : V m c main_v10 (ix2 (0 : Fin 1) j) = (m ((c.tc : Thread nD τ).loc main_arg13)) (ix1 j) := by
  rw [V_v10]
  exact shapeCast_a_1a_apply _ _ _ _

/-- The packed head weights: the value head's columns, then the termination head's. -/
theorem V_v0 : (V m c main_v0 : S128x128.Idx → EReal)
    = concatenate S128x128 1 [⟨S128x64, ((m ((c.tc : Thread nD τ).loc main_arg14)) : S128x64.Idx → EReal)⟩, ⟨S128x64, ((m ((c.tc : Thread nD τ).loc main_arg18)) : S128x64.Idx → EReal)⟩] concatenates_S128x64_S128x64_S128x128_d1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v0_left (k : Fin 128) (j : Fin 64) : V m c main_v0 (ix2 k (colL j)) = (m ((c.tc : Thread nD τ).loc main_arg14)) (ix2 k j) := by
  rw [V_v0]
  refine concatenate_pair_apply_left (t := S128x128) (s₁ := S128x64) (s₂ := S128x64) (1 : Fin 2) _ _ _ _ (by rfl) (ix2 k j) fun b => ?_
  match b with
  | ⟨0, _⟩ => rfl
  | ⟨1, _⟩ => rfl

theorem v0_right (k : Fin 128) (j : Fin 64) : V m c main_v0 (ix2 k (colR j)) = (m ((c.tc : Thread nD τ).loc main_arg18)) (ix2 k j) := by
  rw [V_v0]
  refine concatenate_pair_apply_right (t := S128x128) (s₁ := S128x64) (s₂ := S128x64) (1 : Fin 2) _ _ _ _ (by rfl) (by rfl) (ix2 k j) (fun b hb => ?_) ?_
  · match b with
    | ⟨0, _⟩ => rfl
    | ⟨1, _⟩ => exact absurd rfl hb
  · show j.val + 64 = 64 + j.val
    omega

/-- The packed head biases, as one row. -/
theorem V_v2 : (V m c main_v2 : S1x128.Idx → EReal)
    = shapeCast S1x128 (concatenate S128 0 [⟨S64, ((m ((c.tc : Thread nD τ).loc main_arg15)) : S64.Idx → EReal)⟩, ⟨S64, ((m ((c.tc : Thread nD τ).loc main_arg19)) : S64.Idx → EReal)⟩] concatenates_S64_S64_S128_d0) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v2_left (j : Fin 64) : V m c main_v2 (ix2 (0 : Fin 1) (colL j)) = (m ((c.tc : Thread nD τ).loc main_arg15)) (ix1 j) := by
  rw [V_v2]
  refine (shapeCast_a_1a_apply _ _ _ _).trans ?_
  refine concatenate_pair_apply_left (t := S128) (s₁ := S64) (s₂ := S64) (0 : Fin 1) _ _ _ _ (by rfl) (ix1 j) fun b => ?_
  match b with
  | ⟨0, _⟩ => rfl

theorem v2_right (j : Fin 64) : V m c main_v2 (ix2 (0 : Fin 1) (colR j)) = (m ((c.tc : Thread nD τ).loc main_arg19)) (ix1 j) := by
  rw [V_v2]
  refine (shapeCast_a_1a_apply _ _ _ _).trans ?_
  refine concatenate_pair_apply_right (t := S128) (s₁ := S64) (s₂ := S64) (0 : Fin 1) _ _ _ _ (by rfl) (by rfl) (ix1 j) (fun b hb => ?_) ?_
  · match b with
    | ⟨0, _⟩ => exact absurd rfl hb
  · show j.val + 64 = 64 + j.val
    omega

/-- Layer 1's value head weights with 64 columns of the padding value behind them. -/
theorem V_v3 : (V m c main_v3 : S128x128.Idx → EReal)
    = pad S128x128 ![0, 0] ![0, 64] ![0, 0] ((m ((c.tc : Thread nD τ).loc main_arg16)) : S128x64.Idx → EReal) (sitofp (F := Ideal) .f32 (constantI S_ 32 0#32)) pads_S128x64_S128x128_000_0640 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v3_left (k : Fin 128) (j : Fin 64) : V m c main_v3 (ix2 k (colL j)) = (m ((c.tc : Thread nD τ).loc main_arg16)) (ix2 k j) := by
  rw [V_v3]
  refine pad_apply_of_inside _ _ _ _ _ _ _ _ (ix2 k j) fun a => ?_
  match a with
  | ⟨0, _⟩ => show k.val = 0 + k.val * (0 + 1); omega
  | ⟨1, _⟩ => show j.val = 0 + j.val * (0 + 1); omega

/-- Layer 1's value head bias with 64 entries of the padding value behind it, as one row. -/
theorem V_v5 : (V m c main_v5 : S1x128.Idx → EReal)
    = shapeCast S1x128 (pad S128 ![0] ![64] ![0] ((m ((c.tc : Thread nD τ).loc main_arg17)) : S64.Idx → EReal) (sitofp (F := Ideal) .f32 (constantI S_ 32 0#32)) pads_S64_S128_0640 h_S_) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

theorem v5_left (j : Fin 64) : V m c main_v5 (ix2 (0 : Fin 1) (colL j)) = (m ((c.tc : Thread nD τ).loc main_arg17)) (ix1 j) := by
  rw [V_v5]
  refine (shapeCast_a_1a_apply _ _ _ _).trans ?_
  refine pad_apply_of_inside _ _ _ _ _ _ _ _ (ix1 j) fun a => ?_
  match a with
  | ⟨0, _⟩ => show j.val = 0 + j.val * (0 + 1); omega

end Cert.KernelIdeal.Windows

end
-- ==== Proof.Entries.lean ====
/-
  The region's result arrays, entry by entry, over the arrays as launched: the host-filled windows (bias rows, packed and
  padded head weights) read back to the arguments they were made from. The packed head's first 64 columns are the value
  head and its last 64 the termination head; the padded head's first 64 columns are layer 1's value head.
-/
import proofs.«110454_j70712341561351_2_alg».proof.Proof.Gen.KernelIdeal.Frame
import proofs.«110454_j70712341561351_2_alg».proof.Proof.Spec
import proofs.«110454_j70712341561351_2_alg».proof.Proof.Results
import proofs.«110454_j70712341561351_2_alg».proof.Proof.Windows
import Idealize.ShloMosaic.Lib.ValueIdx

noncomputable section

namespace Cert.KernelIdeal.Entries

open Cert.KernelIdeal Cert.KernelIdeal.Gen Cert.KernelIdeal.Results Cert.KernelIdeal.Windows Cert.Spec Idealize.ShloMosaic Idealize.ShloMosaic.ValueIdx Idealize.SL.Sem

variable (m : (ℓ : Loc nD τ sig) → Buf (Elt Ideal) ℓ) (c : Dev nD)

/-! ## The windows the host fills, read back to the arguments -/

/-- A bias window's one row is the bias argument, entry by entry. -/
theorem bias6 : row (V m c main_v6) (0 : Fin 1) = vec (m ((c.tc : Thread nD τ).loc main_arg5) : S128.Idx → EReal) :=
  funext fun j => v6_row m c j
theorem bias7 : row (V m c main_v7) (0 : Fin 1) = vec (m ((c.tc : Thread nD τ).loc main_arg8) : S384.Idx → EReal) :=
  funext fun j => v7_row m c j
theorem bias8 : row (V m c main_v8) (0 : Fin 1) = vec (m ((c.tc : Thread nD τ).loc main_arg9) : S384.Idx → EReal) :=
  funext fun j => v8_row m c j
theorem bias9 : row (V m c main_v9) (0 : Fin 1) = vec (m ((c.tc : Thread nD τ).loc main_arg12) : S384.Idx → EReal) :=
  funext fun j => v9_row m c j
theorem bias10 : row (V m c main_v10) (0 : Fin 1) = vec (m ((c.tc : Thread nD τ).loc main_arg13) : S384.Idx → EReal) :=
  funext fun j => v10_row m c j

/-- A head at a column of one weight array is the head at a column of another, when the two weight columns agree
    entry by entry and the two bias entries agree: the sum is over the same terms. -/
theorem head_cols {κ κ' : Type} (h : Fin 128 → EReal) (W : Fin 128 → κ → EReal) (b : κ → EReal)
    (W' : Fin 128 → κ' → EReal) (b' : κ' → EReal) (j : κ) (j' : κ')
    (hW : ∀ k, W k j = W' k j') (hb : b j = b' j') : head h W b j = head h W' b' j' := by
  unfold head lin
  exact congrArg₂ (· + ·) (Finset.sum_congr rfl fun k _ => congrArg (contrast (h k) * ·) (hW k)) hb

/-! ## The two cells' rows over the arrays as launched -/

/-- Layer 0's cell row: every window it reads is an argument as launched, or a bias argument as one row. -/
theorem cell0 (r : Fin 16384) :
    gru (attn (row (V m c main_arg0) r) (mat (V m c main_arg4)) (row (V m c main_v6) 0)) (row (V m c main_arg2) r) (mat (V m c main_arg6)) (mat (V m c main_arg7)) (row (V m c main_v7) 0) (row (V m c main_v8) 0)
      = gru (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg2) : S16384x128.Idx → EReal) r) (mat (m ((c.tc : Thread nD τ).loc main_arg6) : S128x384.Idx → EReal)) (mat (m ((c.tc : Thread nD τ).loc main_arg7) : S128x384.Idx → EReal)) (vec (m ((c.tc : Thread nD τ).loc main_arg8) : S384.Idx → EReal)) (vec (m ((c.tc : Thread nD τ).loc main_arg9) : S384.Idx → EReal)) := by
  rw [bias6 m c, bias7 m c, bias8 m c, V_main_arg0 m c, V_main_arg4 m c, V_main_arg2 m c, V_main_arg6 m c, V_main_arg7 m c]

/-- Layer 1's cell row, likewise. -/
theorem cell1 (r : Fin 16384) :
    gru (cat (attn (row (V m c main_arg0) r) (mat (V m c main_arg4)) (row (V m c main_v6) 0)) (row (V m c main_arg3) r)) (row (V m c main_arg3) r) (mat (V m c main_arg10)) (mat (V m c main_arg11)) (row (V m c main_v9) 0) (row (V m c main_v10) 0)
      = gru (cat (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg3) : S16384x128.Idx → EReal) r)) (row (m ((c.tc : Thread nD τ).loc main_arg3) : S16384x128.Idx → EReal) r) (mat (m ((c.tc : Thread nD τ).loc main_arg10) : S256x384.Idx → EReal)) (mat (m ((c.tc : Thread nD τ).loc main_arg11) : S128x384.Idx → EReal)) (vec (m ((c.tc : Thread nD τ).loc main_arg12) : S384.Idx → EReal)) (vec (m ((c.tc : Thread nD τ).loc main_arg13) : S384.Idx → EReal)) := by
  rw [bias6 m c, bias9 m c, bias10 m c, V_main_arg0 m c, V_main_arg4 m c, V_main_arg3 m c, V_main_arg10 m c, V_main_arg11 m c]

/-! ## The four result arrays at an entry, by definition -/

theorem G19_apply (r : Fin 16384) (q : Fin 128) :
    G19 m c (ix2 r q) = gru (attn (row (V m c main_arg0) r) (mat (V m c main_arg4)) (row (V m c main_v6) 0)) (row (V m c main_arg2) r) (mat (V m c main_arg6)) (mat (V m c main_arg7)) (row (V m c main_v7) 0) (row (V m c main_v8) 0) q := rfl
theorem G17_apply (r : Fin 16384) (j : Fin 128) :
    G17 m c (ix2 r j) = head (gru (attn (row (V m c main_arg0) r) (mat (V m c main_arg4)) (row (V m c main_v6) 0)) (row (V m c main_arg2) r) (mat (V m c main_arg6)) (mat (V m c main_arg7)) (row (V m c main_v7) 0) (row (V m c main_v8) 0)) (mat (V m c main_v0)) (row (V m c main_v2) 0) j := rfl
theorem G20_apply (r : Fin 16384) (q : Fin 128) :
    G20 m c (ix2 r q) = gru (cat (attn (row (V m c main_arg0) r) (mat (V m c main_arg4)) (row (V m c main_v6) 0)) (row (V m c main_arg3) r)) (row (V m c main_arg3) r) (mat (V m c main_arg10)) (mat (V m c main_arg11)) (row (V m c main_v9) 0) (row (V m c main_v10) 0) q := rfl
theorem G18_apply (r : Fin 16384) (j : Fin 128) :
    G18 m c (ix2 r j) = head (gru (cat (attn (row (V m c main_arg0) r) (mat (V m c main_arg4)) (row (V m c main_v6) 0)) (row (V m c main_arg3) r)) (row (V m c main_arg3) r) (mat (V m c main_arg10)) (mat (V m c main_arg11)) (row (V m c main_v9) 0) (row (V m c main_v10) 0)) (mat (V m c main_v3)) (row (V m c main_v5) 0) j := rfl

/-- Layer 0's new hidden state. -/
theorem h0n_entry (r : Fin 16384) (q : Fin 128) :
    G19 m c (ix2 r q) = (gru (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg2) : S16384x128.Idx → EReal) r) (mat (m ((c.tc : Thread nD τ).loc main_arg6) : S128x384.Idx → EReal)) (mat (m ((c.tc : Thread nD τ).loc main_arg7) : S128x384.Idx → EReal)) (vec (m ((c.tc : Thread nD τ).loc main_arg8) : S384.Idx → EReal)) (vec (m ((c.tc : Thread nD τ).loc main_arg9) : S384.Idx → EReal))) q := by
  rw [G19_apply, cell0 m c r]

/-- Layer 0's value head: the packed head's first 64 columns. -/
theorem v0_entry (r : Fin 16384) (j : Fin 64) :
    G17 m c (ix2 r (colL j)) = head (gru (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg2) : S16384x128.Idx → EReal) r) (mat (m ((c.tc : Thread nD τ).loc main_arg6) : S128x384.Idx → EReal)) (mat (m ((c.tc : Thread nD τ).loc main_arg7) : S128x384.Idx → EReal)) (vec (m ((c.tc : Thread nD τ).loc main_arg8) : S384.Idx → EReal)) (vec (m ((c.tc : Thread nD τ).loc main_arg9) : S384.Idx → EReal))) (mat (m ((c.tc : Thread nD τ).loc main_arg14) : S128x64.Idx → EReal)) (vec (m ((c.tc : Thread nD τ).loc main_arg15) : S64.Idx → EReal)) j := by
  rw [G17_apply, cell0 m c r]
  exact head_cols _ _ _ _ _ _ _ (fun k => v0_left m c k j) (v2_left m c j)

/-- Layer 0's termination logit: the packed head's last 64 columns. -/
theorem logit_entry (r : Fin 16384) (j : Fin 64) :
    G17 m c (ix2 r (colR j)) = head (gru (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg2) : S16384x128.Idx → EReal) r) (mat (m ((c.tc : Thread nD τ).loc main_arg6) : S128x384.Idx → EReal)) (mat (m ((c.tc : Thread nD τ).loc main_arg7) : S128x384.Idx → EReal)) (vec (m ((c.tc : Thread nD τ).loc main_arg8) : S384.Idx → EReal)) (vec (m ((c.tc : Thread nD τ).loc main_arg9) : S384.Idx → EReal))) (mat (m ((c.tc : Thread nD τ).loc main_arg18) : S128x64.Idx → EReal)) (vec (m ((c.tc : Thread nD τ).loc main_arg19) : S64.Idx → EReal)) j := by
  rw [G17_apply, cell0 m c r]
  exact head_cols _ _ _ _ _ _ _ (fun k => v0_right m c k j) (v2_right m c j)

/-- Layer 1's new hidden state. -/
theorem h1n_entry (r : Fin 16384) (q : Fin 128) :
    G20 m c (ix2 r q) = (gru (cat (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg3) : S16384x128.Idx → EReal) r)) (row (m ((c.tc : Thread nD τ).loc main_arg3) : S16384x128.Idx → EReal) r) (mat (m ((c.tc : Thread nD τ).loc main_arg10) : S256x384.Idx → EReal)) (mat (m ((c.tc : Thread nD τ).loc main_arg11) : S128x384.Idx → EReal)) (vec (m ((c.tc : Thread nD τ).loc main_arg12) : S384.Idx → EReal)) (vec (m ((c.tc : Thread nD τ).loc main_arg13) : S384.Idx → EReal))) q := by
  rw [G20_apply, cell1 m c r]

/-- Layer 1's value head: the padded head's first 64 columns. -/
theorem v1_entry (r : Fin 16384) (j : Fin 64) :
    G18 m c (ix2 r (colL j)) = head (gru (cat (attn (row (m ((c.tc : Thread nD τ).loc main_arg0) : S16384x4096.Idx → EReal) r) (mat (m ((c.tc : Thread nD τ).loc main_arg4) : S4096x128.Idx → EReal)) (vec (m ((c.tc : Thread nD τ).loc main_arg5) : S128.Idx → EReal))) (row (m ((c.tc : Thread nD τ).loc main_arg3) : S16384x128.Idx → EReal) r)) (row (m ((c.tc : Thread nD τ).loc main_arg3) : S16384x128.Idx → EReal) r) (mat (m ((c.tc : Thread nD τ).loc main_arg10) : S256x384.Idx → EReal)) (mat (m ((c.tc : Thread nD τ).loc main_arg11) : S128x384.Idx → EReal)) (vec (m ((c.tc : Thread nD τ).loc main_arg12) : S384.Idx → EReal)) (vec (m ((c.tc : Thread nD τ).loc main_arg13) : S384.Idx → EReal))) (mat (m ((c.tc : Thread nD τ).loc main_arg16) : S128x64.Idx → EReal)) (vec (m ((c.tc : Thread nD τ).loc main_arg17) : S64.Idx → EReal)) j := by
  rw [G18_apply, cell1 m c r]
  exact head_cols _ _ _ _ _ _ _ (fun k => v3_left m c k j) (v5_left m c j)

end Cert.KernelIdeal.Entries

end
-- ==== Proof.RefRows.lean ====
/-
  What the reference computes, entry by entry: row `r` of each result is the row-wise mathematics of `Spec`
  applied to row `r` of the observations and of the two hidden states.

  The reference is a list of whole-array operations. Each stage below reads one group of them at an entry
  `(r, ·)`: an affine map is a sum over the contracted coordinate plus a broadcast bias; a gate is a slice of
  384 columns at offset 0, 128 or 256; the logistic function is spelt as the quotient `1 / (1 + e^(−t))`.
-/
import proofs.«110454_j70712341561351_2_alg».proof.Proof.RefReadP
import proofs.«110454_j70712341561351_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Cert.ReferenceIdeal Cert.ReferenceIdeal.Read Cert.Spec Idealize.ShloMosaic Idealize.ShloMosaic.ValueIdx

variable (x0 : (⟨S16384x4096, .f32⟩ : BufTy).Contents (Elt Ideal)) (x2 x3 : (⟨S16384x128, .f32⟩ : BufTy).Contents (Elt Ideal)) (x4 : (⟨S4096x128, .f32⟩ : BufTy).Contents (Elt Ideal)) (x5 : (⟨S128, .f32⟩ : BufTy).Contents (Elt Ideal))
  (x6 x7 : (⟨S128x384, .f32⟩ : BufTy).Contents (Elt Ideal)) (x8 x9 : (⟨S384, .f32⟩ : BufTy).Contents (Elt Ideal)) (x10 : (⟨S256x384, .f32⟩ : BufTy).Contents (Elt Ideal)) (x11 : (⟨S128x384, .f32⟩ : BufTy).Contents (Elt Ideal))
  (x12 x13 : (⟨S384, .f32⟩ : BufTy).Contents (Elt Ideal)) (x14 x16 x18 : (⟨S128x64, .f32⟩ : BufTy).Contents (Elt Ideal)) (x15 x17 x19 : (⟨S64, .f32⟩ : BufTy).Contents (Elt Ideal))

/-! ### The attention row -/

/-- Entry `(r, k)` of the attention activations: `tanh` of the affine map of row `r` of the observations. -/
theorem attn_apply (r : Fin 16384) (k : Fin 128) :
    val_main_v4 (F := Ideal) x0 x4 x5 (ix2 r k) = attn (row x0 r) (mat x4) (vec x5) k := by
  rw [val_main_v4_apply, val_main_v3_apply, val_main_v0_apply, val_main_v2_apply, val_main_v1_apply]
  have hl : ∀ k' : Fin 4096, lidx_main_v0 (ix2 r k) k' = ix2 r k' := fun k' => funext fun a => Fin.ext (by match a with | ⟨0, _⟩ => rfl | ⟨1, _⟩ => rfl)
  have hr : ∀ k' : Fin 4096, ridx_main_v0 (ix2 r k) k' = ix2 k' k := fun k' => funext fun a => Fin.ext (by match a with | ⟨0, _⟩ => rfl | ⟨1, _⟩ => rfl)
  have hb : idx_main_v1 (idx_main_v2 (ix2 r k)) = ix1 k := funext fun a => Fin.ext (by match a with | ⟨0, _⟩ => rfl)
  rw [hb, Ideal.addf_def, Ideal.hostUnary_tanh_def]
  unfold attn lin
  refine congrArg (fun t => Ideal.tanh (t + _)) (Finset.sum_congr rfl fun k' _ => ?_)
  rw [hl k', hr k']

/-! ### Layer 0: the two gate rows -/

/-- Entry `(r, c)` of layer 0's input-side gate row: the affine map of the attention row. -/
theorem gi0_apply (r : Fin 16384) (c : Fin 384) :
    val_main_v8 (F := Ideal) x0 x4 x5 x6 x8 (ix2 r c) = lin (attn (row x0 r) (mat x4) (vec x5)) (mat x6) (vec x8) c := by
  rw [val_main_v8_apply, val_main_v5_apply, val_main_v7_apply, val_main_v6_apply]
  have hl : ∀ k : Fin 128, lidx_main_v5 (ix2 r c) k = ix2 r k := fun k => funext fun a => Fin.ext (by match a with | ⟨0, _⟩ => rfl | ⟨1, _⟩ => rfl)
  have hr : ∀ k : Fin 128, ridx_main_v5 (ix2 r c) k = ix2 k c := fun k => funext fun a => Fin.ext (by match a with | ⟨0, _⟩ => rfl | ⟨1, _⟩ => rfl)
  have hb : idx_main_v6 (idx_main_v7 (ix2 r c)) = ix1 c := funext fun a => Fin.ext (by match a with | ⟨0, _⟩ => rfl)
  rw [hb, Ideal.addf_def]
  unfold lin
  refine congrArg (· + _) (Finset.sum_congr rfl fun k _ => ?_)
  rw [hl k, hr k, attn_apply]

/-- Entry `(r, c)` of layer 0's hidden-side gate row: the affine map of row `r` of the hidden state. -/
theorem gh0_apply (r : Fin 16384) (c : Fin 384) :
    val_main_v12 (F := Ideal) x2 x7 x9 (ix2 r c) = lin (row x2 r) (mat x7) (vec x9) c := by
  rw [val_main_v12_apply, val_main_v9_apply, val_main_v11_apply, val_main_v10_apply]
  have hl : ∀ k : Fin 128, lidx_main_v9 (ix2 r c) k = ix2 r k := fun k => funext fun a => Fin.ext (by match a with | ⟨0, _⟩ => rfl | ⟨1, _⟩ => rfl)
  have hr : ∀ k : Fin 128, ridx_main_v9 (ix2 r c) k = ix2 k c := fun k => funext fun a => Fin.ext (by match a with | ⟨0, _⟩ => rfl | ⟨1, _⟩ => rfl)
  have hb : idx_main_v10 (idx_main_v11 (ix2 r c)) = ix1 c := funext fun a => Fin.ext (by match a with | ⟨0, _⟩ => rfl)
  rw [hb, Ideal.addf_def]
  unfold lin
  refine congrArg (· + _) (Finset.sum_congr rfl fun k _ => ?_)
  rw [hl k, hr k]

/-! ### One GRU step as the host spells it -/

/-- The host's arithmetic of one GRU step — the logistic function written as the quotient `1 / (1 + e^(−t))` — is `gru`. -/
theorem gru_host {ι : Type} [Fintype ι] (u : ι → EReal) (h : Fin 128 → EReal) (Wih : ι → Fin 384 → EReal)
    (Whh : Fin 128 → Fin 384 → EReal) (bih bhh : Fin 384 → EReal) (q : Fin 128) :
    (one - Ideal.div one (one + Ideal.exp (-(lin u Wih bih (g1 q) + lin h Whh bhh (g1 q)))))
        * Ideal.tanh (lin u Wih bih (g2 q)
            + Ideal.div one (one + Ideal.exp (-(lin u Wih bih (g0 q) + lin h Whh bhh (g0 q)))) * lin h Whh bhh (g2 q))
      + Ideal.div one (one + Ideal.exp (-(lin u Wih bih (g1 q) + lin h Whh bhh (g1 q)))) * h q
      = gru u h Wih Whh bih bhh q := by
  unfold gru
  rw [logistic_eq, logistic_eq]
/-- Layer 0's new hidden state. -/
theorem h0n_apply (r : Fin 16384) (q : Fin 128) :
    val_main_v40 (F := Ideal) x0 x2 x4 x5 x6 x7 x8 x9 (ix2 r q)
      = gru (attn (row x0 r) (mat x4) (vec x5)) (row x2 r) (mat x6) (mat x7) (vec x8) (vec x9) q := by
  rw [val_main_v40_apply, val_main_v38_apply, val_main_v39_apply, val_main_v37_apply, val_main_v36_apply, val_main_cst_3_apply, val_main_v35_apply, val_main_v34_apply, val_main_v33_apply,
    val_main_v32_apply, val_main_v31_apply, val_main_cst_2_apply, val_main_v30_apply, val_main_v29_apply, val_main_cst_1_apply, val_main_v28_apply, val_main_v27_apply, val_main_v26_apply,
    val_main_v25_apply, val_main_v24_apply, val_main_cst_0_apply, val_main_v23_apply, val_main_v22_apply, val_main_cst_apply, val_main_v21_apply, val_main_v20_apply, val_main_v19_apply,
    val_main_v13_apply, val_main_v14_apply, val_main_v15_apply, val_main_v16_apply, val_main_v17_apply, val_main_v18_apply]
  have e0 : idx_main_v13 (ix2 r q) = ix2 r (g0 q) := funext fun a => Fin.ext (by match a with | ⟨0, _⟩ => rfl | ⟨1, _⟩ => rfl)
  have e1 : idx_main_v14 (ix2 r q) = ix2 r (g1 q) := funext fun a => Fin.ext (by match a with | ⟨0, _⟩ => rfl | ⟨1, _⟩ => rfl)
  have e2 : idx_main_v15 (ix2 r q) = ix2 r (g2 q) := funext fun a => Fin.ext (by match a with | ⟨0, _⟩ => rfl | ⟨1, _⟩ => rfl)
  have f0 : idx_main_v16 (ix2 r q) = ix2 r (g0 q) := funext fun a => Fin.ext (by match a with | ⟨0, _⟩ => rfl | ⟨1, _⟩ => rfl)
  have f1 : idx_main_v17 (ix2 r q) = ix2 r (g1 q) := funext fun a => Fin.ext (by match a with | ⟨0, _⟩ => rfl | ⟨1, _⟩ => rfl)
  have f2 : idx_main_v18 (ix2 r q) = ix2 r (g2 q) := funext fun a => Fin.ext (by match a with | ⟨0, _⟩ => rfl | ⟨1, _⟩ => rfl)
  rw [e0, e1, e2, f0, f1, f2]
  simp only [gi0_apply, gh0_apply, Ideal.addf_def, Ideal.mulf_def, Ideal.subf_def, Ideal.hostDivf_def, Ideal.hostUnary_exp_def, Ideal.hostUnary_tanh_def, Ideal.hostNegf_def, Ideal.negf_def, Ideal.ofBits_def]
  exact gru_host _ _ _ _ _ _ q

/-! ### Layer 0: the gain contrast of the new hidden row, read by the two heads -/

/-- Entry `(r, k)` of the contrasted new hidden state of layer 0. -/
theorem c0_apply (r : Fin 16384) (k : Fin 128) :
    val_main_v46 (F := Ideal) x0 x2 x4 x5 x6 x7 x8 x9 (ix2 r k) = contrast ((gru (attn (row x0 r) (mat x4) (vec x5)) (row x2 r) (mat x6) (mat x7) (vec x8) (vec x9)) k) := by
  rw [val_main_v46_apply, val_main_v45_apply, val_main_cst_6_apply, val_main_v44_apply, val_main_v43_apply, val_main_cst_5_apply,
    val_main_v42_apply, val_main_v41_apply, val_main_cst_4_apply, h0n_apply]
  simp only [Ideal.addf_def, Ideal.mulf_def, Ideal.subf_def, Ideal.hostDivf_def, Ideal.hostUnary_exp_def, Ideal.hostUnary_tanh_def, Ideal.hostNegf_def, Ideal.negf_def, Ideal.ofBits_def]
  rfl

/-- Layer 0's value head. -/
theorem v0_apply (r : Fin 16384) (j : Fin 64) :
    val_main_v50 (F := Ideal) x0 x2 x4 x5 x6 x7 x8 x9 x14 x15 (ix2 r j)
      = head (gru (attn (row x0 r) (mat x4) (vec x5)) (row x2 r) (mat x6) (mat x7) (vec x8) (vec x9)) (mat x14) (vec x15) j := by
  rw [val_main_v50_apply, val_main_v47_apply, val_main_v49_apply, val_main_v48_apply]
  have hl : ∀ k : Fin 128, lidx_main_v47 (ix2 r j) k = ix2 r k := fun k => funext fun a => Fin.ext (by match a with | ⟨0, _⟩ => rfl | ⟨1, _⟩ => rfl)
  have hr : ∀ k : Fin 128, ridx_main_v47 (ix2 r j) k = ix2 k j := fun k => funext fun a => Fin.ext (by match a with | ⟨0, _⟩ => rfl | ⟨1, _⟩ => rfl)
  have hb : idx_main_v48 (idx_main_v49 (ix2 r j)) = ix1 j := funext fun a => Fin.ext (by match a with | ⟨0, _⟩ => rfl)
  rw [hb, Ideal.addf_def]
  unfold head lin
  refine congrArg (· + _) (Finset.sum_congr rfl fun k _ => ?_)
  rw [hl k, hr k, c0_apply]

/-- Layer 0's termination logit (before the logistic function). -/
theorem logit_apply (r : Fin 16384) (j : Fin 64) :
    val_main_v54 (F := Ideal) x0 x2 x4 x5 x6 x7 x8 x9 x18 x19 (ix2 r j)
      = head (gru (attn (row x0 r) (mat x4) (vec x5)) (row x2 r) (mat x6) (mat x7) (vec x8) (vec x9)) (mat x18) (vec x19) j := by
  rw [val_main_v54_apply, val_main_v51_apply, val_main_v53_apply, val_main_v52_apply]
  have hl : ∀ k : Fin 128, lidx_main_v51 (ix2 r j) k = ix2 r k := fun k => funext fun a => Fin.ext (by match a with | ⟨0, _⟩ => rfl | ⟨1, _⟩ => rfl)
  have hr : ∀ k : Fin 128, ridx_main_v51 (ix2 r j) k = ix2 k j := fun k => funext fun a => Fin.ext (by match a with | ⟨0, _⟩ => rfl | ⟨1, _⟩ => rfl)
  have hb : idx_main_v52 (idx_main_v53 (ix2 r j)) = ix1 j := funext fun a => Fin.ext (by match a with | ⟨0, _⟩ => rfl)
  rw [hb, Ideal.addf_def]
  unfold head lin
  refine congrArg (· + _) (Finset.sum_congr rfl fun k _ => ?_)
  rw [hl k, hr k, c0_apply]

/-! ### Layer 1: its input row is the attention row followed by its own hidden row -/

/-- Entry `(r, k)` of the joined rows: below column 128 the attention row, from column 128 on row `r` of the hidden state. -/
theorem cat_apply (r : Fin 16384) (k : Fin 256) :
    val_main_v63 (F := Ideal) x0 x3 x4 x5 (ix2 r k) = cat (attn (row x0 r) (mat x4) (vec x5)) (row x3 r) k := by
  unfold val_main_v63 cat
  by_cases h : k.val < 128
  · rw [dif_pos h]
    refine (concatenate_pair_apply_left (t := S16384x256) (s₁ := S16384x128) (s₂ := S16384x128) (1 : Fin 2) _ _ _
      (ix2 r k) rfl (ix2 r (⟨k.val, h⟩ : Fin 128))
      (fun b => by match b with | ⟨0, _⟩ => rfl | ⟨1, _⟩ => rfl)).trans ?_
    exact attn_apply x0 x4 x5 r ⟨k.val, h⟩
  · rw [dif_neg h]
    exact concatenate_pair_apply_right (t := S16384x256) (s₁ := S16384x128) (s₂ := S16384x128) (1 : Fin 2) _ _ _
      (ix2 r k) rfl rfl (ix2 r (⟨k.val - 128, by omega⟩ : Fin 128))
      (fun b hb => by match b, hb with | ⟨0, _⟩, _ => rfl | ⟨1, _⟩, hb => exact absurd rfl hb)
      (by show k.val - 128 + 128 = k.val; omega)

/-- Entry `(r, c)` of layer 1's input-side gate row: the affine map of the joined row. -/
theorem gi1_apply (r : Fin 16384) (c : Fin 384) :
    val_main_v67 (F := Ideal) x0 x3 x4 x5 x10 x12 (ix2 r c) = lin (cat (attn (row x0 r) (mat x4) (vec x5)) (row x3 r)) (mat x10) (vec x12) c := by
  rw [val_main_v67_apply, val_main_v64_apply, val_main_v66_apply, val_main_v65_apply]
  have hl : ∀ k : Fin 256, lidx_main_v64 (ix2 r c) k = ix2 r k := fun k => funext fun a => Fin.ext (by match a with | ⟨0, _⟩ => rfl | ⟨1, _⟩ => rfl)
  have hr : ∀ k : Fin 256, ridx_main_v64 (ix2 r c) k = ix2 k c := fun k => funext fun a => Fin.ext (by match a with | ⟨0, _⟩ => rfl | ⟨1, _⟩ => rfl)
  have hb : idx_main_v65 (idx_main_v66 (ix2 r c)) = ix1 c := funext fun a => Fin.ext (by match a with | ⟨0, _⟩ => rfl)
  rw [hb, Ideal.addf_def]
  unfold lin
  refine congrArg (· + _) (Finset.sum_congr rfl fun k _ => ?_)
  rw [hl k, hr k, cat_apply]

/-- Entry `(r, c)` of layer 1's hidden-side gate row: the affine map of row `r` of its hidden state. -/
theorem gh1_apply (r : Fin 16384) (c : Fin 384) :
    val_main_v71 (F := Ideal) x3 x11 x13 (ix2 r c) = lin (row x3 r) (mat x11) (vec x13) c := by
  rw [val_main_v71_apply, val_main_v68_apply, val_main_v70_apply, val_main_v69_apply]
  have hl : ∀ k : Fin 128, lidx_main_v68 (ix2 r c) k = ix2 r k := fun k => funext fun a => Fin.ext (by match a with | ⟨0, _⟩ => rfl | ⟨1, _⟩ => rfl)
  have hr : ∀ k : Fin 128, ridx_main_v68 (ix2 r c) k = ix2 k c := fun k => funext fun a => Fin.ext (by match a with | ⟨0, _⟩ => rfl | ⟨1, _⟩ => rfl)
  have hb : idx_main_v69 (idx_main_v70 (ix2 r c)) = ix1 c := funext fun a => Fin.ext (by match a with | ⟨0, _⟩ => rfl)
  rw [hb, Ideal.addf_def]
  unfold lin
  refine congrArg (· + _) (Finset.sum_congr rfl fun k _ => ?_)
  rw [hl k, hr k]

/-- Layer 1's new hidden state. -/
theorem h1n_apply (r : Fin 16384) (q : Fin 128) :
    val_main_v99 (F := Ideal) x0 x3 x4 x5 x10 x11 x12 x13 (ix2 r q)
      = gru (cat (attn (row x0 r) (mat x4) (vec x5)) (row x3 r)) (row x3 r) (mat x10) (mat x11) (vec x12) (vec x13) q := by
  rw [val_main_v99_apply, val_main_v97_apply, val_main_v98_apply, val_main_v96_apply, val_main_v95_apply, val_main_cst_13_apply, val_main_v94_apply, val_main_v93_apply, val_main_v92_apply,
    val_main_v91_apply, val_main_v90_apply, val_main_cst_12_apply, val_main_v89_apply, val_main_v88_apply, val_main_cst_11_apply, val_main_v87_apply, val_main_v86_apply, val_main_v85_apply,
    val_main_v84_apply, val_main_v83_apply, val_main_cst_10_apply, val_main_v82_apply, val_main_v81_apply, val_main_cst_9_apply, val_main_v80_apply, val_main_v79_apply, val_main_v78_apply,
    val_main_v72_apply, val_main_v73_apply, val_main_v74_apply, val_main_v75_apply, val_main_v76_apply, val_main_v77_apply]
  have e0 : idx_main_v72 (ix2 r q) = ix2 r (g0 q) := funext fun a => Fin.ext (by match a with | ⟨0, _⟩ => rfl | ⟨1, _⟩ => rfl)
  have e1 : idx_main_v73 (ix2 r q) = ix2 r (g1 q) := funext fun a => Fin.ext (by match a with | ⟨0, _⟩ => rfl | ⟨1, _⟩ => rfl)
  have e2 : idx_main_v74 (ix2 r q) = ix2 r (g2 q) := funext fun a => Fin.ext (by match a with | ⟨0, _⟩ => rfl | ⟨1, _⟩ => rfl)
  have f0 : idx_main_v75 (ix2 r q) = ix2 r (g0 q) := funext fun a => Fin.ext (by match a with | ⟨0, _⟩ => rfl | ⟨1, _⟩ => rfl)
  have f1 : idx_main_v76 (ix2 r q) = ix2 r (g1 q) := funext fun a => Fin.ext (by match a with | ⟨0, _⟩ => rfl | ⟨1, _⟩ => rfl)
  have f2 : idx_main_v77 (ix2 r q) = ix2 r (g2 q) := funext fun a => Fin.ext (by match a with | ⟨0, _⟩ => rfl | ⟨1, _⟩ => rfl)
  rw [e0, e1, e2, f0, f1, f2]
  simp only [gi1_apply, gh1_apply, Ideal.addf_def, Ideal.mulf_def, Ideal.subf_def, Ideal.hostDivf_def, Ideal.hostUnary_exp_def, Ideal.hostUnary_tanh_def, Ideal.hostNegf_def, Ideal.negf_def, Ideal.ofBits_def]
  exact gru_host _ _ _ _ _ _ q

/-! ### Layer 1: the gain contrast of the new hidden row, read by its head -/

/-- Entry `(r, k)` of the contrasted new hidden state of layer 1. -/
theorem c1_apply (r : Fin 16384) (k : Fin 128) :
    val_main_v105 (F := Ideal) x0 x3 x4 x5 x10 x11 x12 x13 (ix2 r k) = contrast ((gru (cat (attn (row x0 r) (mat x4) (vec x5)) (row x3 r)) (row x3 r) (mat x10) (mat x11) (vec x12) (vec x13)) k) := by
  rw [val_main_v105_apply, val_main_v104_apply, val_main_cst_16_apply, val_main_v103_apply, val_main_v102_apply, val_main_cst_15_apply,
    val_main_v101_apply, val_main_v100_apply, val_main_cst_14_apply, h1n_apply]
  simp only [Ideal.addf_def, Ideal.mulf_def, Ideal.subf_def, Ideal.hostDivf_def, Ideal.hostUnary_exp_def, Ideal.hostUnary_tanh_def, Ideal.hostNegf_def, Ideal.negf_def, Ideal.ofBits_def]
  rfl

/-- Layer 1's value head. -/
theorem v1_apply (r : Fin 16384) (j : Fin 64) :
    val_main_v109 (F := Ideal) x0 x3 x4 x5 x10 x11 x12 x13 x16 x17 (ix2 r j)
      = head (gru (cat (attn (row x0 r) (mat x4) (vec x5)) (row x3 r)) (row x3 r) (mat x10) (mat x11) (vec x12) (vec x13)) (mat x16) (vec x17) j := by
  rw [val_main_v109_apply, val_main_v106_apply, val_main_v108_apply, val_main_v107_apply]
  have hl : ∀ k : Fin 128, lidx_main_v106 (ix2 r j) k = ix2 r k := fun k => funext fun a => Fin.ext (by match a with | ⟨0, _⟩ => rfl | ⟨1, _⟩ => rfl)
  have hr : ∀ k : Fin 128, ridx_main_v106 (ix2 r j) k = ix2 k j := fun k => funext fun a => Fin.ext (by match a with | ⟨0, _⟩ => rfl | ⟨1, _⟩ => rfl)
  have hb : idx_main_v107 (idx_main_v108 (ix2 r j)) = ix1 j := funext fun a => Fin.ext (by match a with | ⟨0, _⟩ => rfl)
  rw [hb, Ideal.addf_def]
  unfold head lin
  refine congrArg (· + _) (Finset.sum_congr rfl fun k _ => ?_)
  rw [hl k, hr k, c1_apply]

end Cert.ReferenceIdeal.RefRows

end
-- ==== Proof.Bridge.lean ====
/-
  The two programs compute the same five arrays. Entry by entry each result of the kernel's program — the region's arrays
  sliced by the host operations after it — and the matching value of the reference are the same row-wise function of the
  arguments; the chosen option's termination probability is the same function `termP` of equal logits.
-/
import proofs.«110454_j70712341561351_2_alg».proof.Proof.Results
import proofs.«110454_j70712341561351_2_alg».proof.Proof.Entries
import proofs.«110454_j70712341561351_2_alg».proof.Proof.RefRows
import proofs.«110454_j70712341561351_2_alg».proof.Proof.TermP
import Idealize.ShloMosaic.Lib.ValueIdx
import Idealize.ShloMosaic.Lib.ValueLayout

noncomputable section

namespace Cert.Bridge

open Cert.KernelIdeal Cert.KernelIdeal.Gen Cert.KernelIdeal.Results Cert.KernelIdeal.Windows Idealize.ShloMosaic Idealize.ShloMosaic.ValueIdx Idealize.SL.Sem

variable (m : (ℓ : Loc nD τ sig) → Buf (Elt Ideal) ℓ) (c : Dev nD)

/-- Layer 0's new hidden state. -/
theorem h0n_eq : G19 m c = Cert.ReferenceIdeal.Read.val_main_v40 (F := Ideal) (m ((c.tc : Thread nD τ).loc main_arg0) : S16384x4096.Idx → EReal) (m ((c.tc : Thread nD τ).loc main_arg2) : S16384x128.Idx → EReal) (m ((c.tc : Thread nD τ).loc main_arg4) : S4096x128.Idx → EReal) (m ((c.tc : Thread nD τ).loc main_arg5) : S128.Idx → EReal) (m ((c.tc : Thread nD τ).loc main_arg6) : S128x384.Idx → EReal) (m ((c.tc : Thread nD τ).loc main_arg7) : S128x384.Idx → EReal) (m ((c.tc : Thread nD τ).loc main_arg8) : S384.Idx → EReal) (m ((c.tc : Thread nD τ).loc main_arg9) : S384.Idx → EReal) := by
  funext i
  obtain ⟨r, q, rfl⟩ : ∃ (r : Fin 16384) (q : Fin 128), i = ix2 r q := ⟨i 0, i 1, eq_ix2 i⟩
  rw [Cert.KernelIdeal.Entries.h0n_entry, Cert.ReferenceIdeal.RefRows.h0n_apply]

/-- Layer 1's new hidden state. -/
theorem h1n_eq : G20 m c = Cert.ReferenceIdeal.Read.val_main_v99 (F := Ideal) (m ((c.tc : Thread nD τ).loc main_arg0) : S16384x4096.Idx → EReal) (m ((c.tc : Thread nD τ).loc main_arg3) : S16384x128.Idx → EReal) (m ((c.tc : Thread nD τ).loc main_arg4) : S4096x128.Idx → EReal) (m ((c.tc : Thread nD τ).loc main_arg5) : S128.Idx → EReal) (m ((c.tc : Thread nD τ).loc main_arg10) : S256x384.Idx → EReal) (m ((c.tc : Thread nD τ).loc main_arg11) : S128x384.Idx → EReal) (m ((c.tc : Thread nD τ).loc main_arg12) : S384.Idx → EReal) (m ((c.tc : Thread nD τ).loc main_arg13) : S384.Idx → EReal) := by
  funext i
  obtain ⟨r, q, rfl⟩ : ∃ (r : Fin 16384) (q : Fin 128), i = ix2 r q := ⟨i 0, i 1, eq_ix2 i⟩
  rw [Cert.KernelIdeal.Entries.h1n_entry, Cert.ReferenceIdeal.RefRows.h1n_apply]

/-- Layer 0's value head: the packed head's first 64 columns. -/
theorem v0_eq : extractStridedSlice S16384x64 ![0, 0] (G17 m c) slices_S16384x128_S16384x64_0_0
    = Cert.ReferenceIdeal.Read.val_main_v50 (F := Ideal) (m ((c.tc : Thread nD τ).loc main_arg0) : S16384x4096.Idx → EReal) (m ((c.tc : Thread nD τ).loc main_arg2) : S16384x128.Idx → EReal) (m ((c.tc : Thread nD τ).loc main_arg4) : S4096x128.Idx → EReal) (m ((c.tc : Thread nD τ).loc main_arg5) : S128.Idx → EReal) (m ((c.tc : Thread nD τ).loc main_arg6) : S128x384.Idx → EReal) (m ((c.tc : Thread nD τ).loc main_arg7) : S128x384.Idx → EReal) (m ((c.tc : Thread nD τ).loc main_arg8) : S384.Idx → EReal) (m ((c.tc : Thread nD τ).loc main_arg9) : S384.Idx → EReal) (m ((c.tc : Thread nD τ).loc main_arg14) : S128x64.Idx → EReal) (m ((c.tc : Thread nD τ).loc main_arg15) : S64.Idx → EReal) := by
  funext i
  obtain ⟨r, j, rfl⟩ : ∃ (r : Fin 16384) (j : Fin 64), i = ix2 r j := ⟨i 0, i 1, eq_ix2 i⟩
  refine (slice2_axis1_apply 0 (G17 m c) _ r j (colL j) (by show j.val = 0 + j.val; omega)).trans ?_
  rw [Cert.KernelIdeal.Entries.v0_entry, Cert.ReferenceIdeal.RefRows.v0_apply]

/-- Layer 0's termination logits: the packed head's last 64 columns. -/
theorem logit_eq : extractStridedSlice S16384x64 ![0, 64] (G17 m c) slices_S16384x128_S16384x64_0_64
    = Cert.ReferenceIdeal.Read.val_main_v54 (F := Ideal) (m ((c.tc : Thread nD τ).loc main_arg0) : S16384x4096.Idx → EReal) (m ((c.tc : Thread nD τ).loc main_arg2) : S16384x128.Idx → EReal) (m ((c.tc : Thread nD τ).loc main_arg4) : S4096x128.Idx → EReal) (m ((c.tc : Thread nD τ).loc main_arg5) : S128.Idx → EReal) (m ((c.tc : Thread nD τ).loc main_arg6) : S128x384.Idx → EReal) (m ((c.tc : Thread nD τ).loc main_arg7) : S128x384.Idx → EReal) (m ((c.tc : Thread nD τ).loc main_arg8) : S384.Idx → EReal) (m ((c.tc : Thread nD τ).loc main_arg9) : S384.Idx → EReal) (m ((c.tc : Thread nD τ).loc main_arg18) : S128x64.Idx → EReal) (m ((c.tc : Thread nD τ).loc main_arg19) : S64.Idx → EReal) := by
  funext i
  obtain ⟨r, j, rfl⟩ : ∃ (r : Fin 16384) (j : Fin 64), i = ix2 r j := ⟨i 0, i 1, eq_ix2 i⟩
  refine (slice2_axis1_apply 64 (G17 m c) _ r j (colR j) rfl).trans ?_
  rw [Cert.KernelIdeal.Entries.logit_entry, Cert.ReferenceIdeal.RefRows.logit_apply]

/-- The chosen option's termination probability. -/
theorem termp_eq : Cert.TermP.termP (extractStridedSlice S16384x64 ![0, 64] (G17 m c) slices_S16384x128_S16384x64_0_64) (m ((c.tc : Thread nD τ).loc main_arg1))
    = Cert.ReferenceIdeal.Read.val_main_v62 (F := Ideal) (m ((c.tc : Thread nD τ).loc main_arg0) : S16384x4096.Idx → EReal) (m ((c.tc : Thread nD τ).loc main_arg1)) (m ((c.tc : Thread nD τ).loc main_arg2) : S16384x128.Idx → EReal) (m ((c.tc : Thread nD τ).loc main_arg4) : S4096x128.Idx → EReal) (m ((c.tc : Thread nD τ).loc main_arg5) : S128.Idx → EReal) (m ((c.tc : Thread nD τ).loc main_arg6) : S128x384.Idx → EReal) (m ((c.tc : Thread nD τ).loc main_arg7) : S128x384.Idx → EReal) (m ((c.tc : Thread nD τ).loc main_arg8) : S384.Idx → EReal) (m ((c.tc : Thread nD τ).loc main_arg9) : S384.Idx → EReal) (m ((c.tc : Thread nD τ).loc main_arg18) : S128x64.Idx → EReal) (m ((c.tc : Thread nD τ).loc main_arg19) : S64.Idx → EReal) := by
  rw [Cert.TermP.ref_termP, logit_eq]

/-- Layer 1's value head: the padded head's first 64 columns. -/
theorem v1_eq : extractStridedSlice S16384x64 ![0, 0] (G18 m c) slices_S16384x128_S16384x64_0_0
    = Cert.ReferenceIdeal.Read.val_main_v109 (F := Ideal) (m ((c.tc : Thread nD τ).loc main_arg0) : S16384x4096.Idx → EReal) (m ((c.tc : Thread nD τ).loc main_arg3) : S16384x128.Idx → EReal) (m ((c.tc : Thread nD τ).loc main_arg4) : S4096x128.Idx → EReal) (m ((c.tc : Thread nD τ).loc main_arg5) : S128.Idx → EReal) (m ((c.tc : Thread nD τ).loc main_arg10) : S256x384.Idx → EReal) (m ((c.tc : Thread nD τ).loc main_arg11) : S128x384.Idx → EReal) (m ((c.tc : Thread nD τ).loc main_arg12) : S384.Idx → EReal) (m ((c.tc : Thread nD τ).loc main_arg13) : S384.Idx → EReal) (m ((c.tc : Thread nD τ).loc main_arg16) : S128x64.Idx → EReal) (m ((c.tc : Thread nD τ).loc main_arg17) : S64.Idx → EReal) := by
  funext i
  obtain ⟨r, j, rfl⟩ : ∃ (r : Fin 16384) (j : Fin 64), i = ix2 r j := ⟨i 0, i 1, eq_ix2 i⟩
  refine (slice2_axis1_apply 0 (G18 m c) _ r j (colL j) (by show j.val = 0 + j.val; omega)).trans ?_
  rw [Cert.KernelIdeal.Entries.v1_entry, Cert.ReferenceIdeal.RefRows.v1_apply]

end Cert.Bridge

end
-- ==== Proof.lean ====
/-
  The certificate of a two-layer GRU step with attention and three heads, tiled over rows.

  Both programs compute, row by row,
      a   = tanh (x · Wa + ba),
      h₀' = GRU (a, h₀),   v₀ = c(h₀') · Wv₀ + bv₀,   p = σ (c(h₀') · Wt₀ + bt₀) at the chosen column,
      h₁' = GRU ((a, h₁), h₁),   v₁ = c(h₁') · Wv₁ + bv₁,        with c(y) = (y − ½) · ½ + ½,
  on the extended reals. The kernel rounds the observations and Wa to bf16 on the way into its first product (the
  identity at the ideal instance), runs 32 grid points of 512 rows each, spells σ as one logistic operation where the host
  spells it 1 / (1 + e^(−t)) (one function on the extended reals), multiplies by the two layer-0 heads packed side by side and
  by layer 1's head padded with zero columns, and lets the host cut the packed and padded results apart afterwards; the
  reference multiplies by each head separately. No step needs a finite input: every difference is a re-arrangement of
  the same sums and products, so the precondition is never opened.

  `Spec` states the row-wise mathematics; `BodyRows` reads the kernel body's four output blocks entry by entry and
  `RefRows` the reference's values; `BlockReads`, `Blocks` carry blocks to whole arrays; `Windows`, `Entries` read the
  host-filled windows back to the arguments; `Tail`, `TermP` read the host operations after the region; `Bridge` joins
  the two sides array by array.
-/
import proofs.«110454_j70712341561351_2_alg».proof.Defs
import proofs.«110454_j70712341561351_2_alg».proof.Proof.Gen.Kernel
import proofs.«110454_j70712341561351_2_alg».proof.Proof.Gen.Kernel.Skeleton
import proofs.«110454_j70712341561351_2_alg».proof.Proof.Gen.Kernel.Launch
import proofs.«110454_j70712341561351_2_alg».proof.Proof.Gen.Kernel.Points
import proofs.«110454_j70712341561351_2_alg».proof.Proof.Gen.Kernel.Frame
import proofs.«110454_j70712341561351_2_alg».proof.Proof.Gen.KernelIdeal
import proofs.«110454_j70712341561351_2_alg».proof.Proof.Gen.KernelIdeal.Skeleton
import proofs.«110454_j70712341561351_2_alg».proof.Proof.Gen.KernelIdeal.Launch
import proofs.«110454_j70712341561351_2_alg».proof.Proof.Gen.KernelIdeal.Points
import proofs.«110454_j70712341561351_2_alg».proof.Proof.Gen.KernelIdeal.Frame
import proofs.«110454_j70712341561351_2_alg».proof.Proof.Gen.ReferenceIdeal
import proofs.«110454_j70712341561351_2_alg».proof.Proof.Gen.Pre_finite_inputs
import proofs.«110454_j70712341561351_2_alg».proof.Proof.RefRunP
import proofs.«110454_j70712341561351_2_alg».proof.Proof.RefReadP
import proofs.«110454_j70712341561351_2_alg».proof.Proof.RefEq
import proofs.«110454_j70712341561351_2_alg».proof.Proof.KernelRun
import proofs.«110454_j70712341561351_2_alg».proof.Proof.Bridge
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2.2.2)
    (Cert.ReferenceIdeal.Value.run (F := Ideal) m ρ)

/-- The two idealized programs, from memories agreeing on the arguments, end with equal results: each result of the
    kernel's program is the reference's value of the same arguments (`Bridge`). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, _, _, _, Cert.KernelIdeal.KernelRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19⟩ := hagree c
  refine ⟨(h c).1.trans ?_, (h c).2.1.trans ?_, (h c).2.2.1.trans ?_, (h c).2.2.2.1.trans ?_, (h c).2.2.2.2.1.trans ?_, (h c).2.2.2.2.2⟩
  · rw [Cert.ReferenceIdeal.RefEq.val_main_v50_eq, a0, a2, a4, a5, a6, a7, a8, a9, a14, a15]
    exact (Cert.Bridge.v0_eq m c).symm
  · rw [Cert.ReferenceIdeal.RefEq.val_main_v62_eq, a0, a1, a2, a4, a5, a6, a7, a8, a9, a18, a19]
    exact (Cert.Bridge.termp_eq m c).symm
  · rw [Cert.ReferenceIdeal.RefEq.val_main_v109_eq, a0, a3, a4, a5, a10, a11, a12, a13, a16, a17]
    exact (Cert.Bridge.v1_eq m c).symm
  · rw [Cert.ReferenceIdeal.RefEq.val_main_v40_eq, a0, a2, a4, a5, a6, a7, a8, a9]
    exact (Cert.Bridge.h0n_eq m c).symm
  · rw [Cert.ReferenceIdeal.RefEq.val_main_v99_eq, a0, a3, a4, a5, a10, a11, a12, a13]
    exact (Cert.Bridge.h1n_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
